-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x48 : Shape := ⟨2, ![8192, 48]⟩
abbrev S8192x16 : Shape := ⟨2, ![8192, 16]⟩
abbrev S8192x8192 : Shape := ⟨2, ![8192, 8192]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S_ : Shape := ⟨0, ![]⟩

class Facts : Prop where
  bcast_S_S8192x48 : S_.BroadcastsInDim S8192x48 (![] : Fin 0 → Fin S8192x48.rank)
  reducesTo_S8192x48_S_d0_1 : S8192x48.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg7 : FVec F S4x128x64 .f32) (main_arg8 : FVec F S4x64 .f32) (main_v33 : IVec S_ 1) : IVec S_ 1 :=
  let main_v34 : FVec F S4x128x64 .f32 := Host.absf main_arg7
  let main_cst_12 : FVec F S_ .f32 := constant S_ .f32 0x7F800000#32
  let main_v35 : FVec F S4x128x64 .f32 := broadcastInDim S4x128x64 ![] bcast_S_S4x128x64 main_cst_12
  let main_v36 : IVec S4x128x64 1 := cmpf .olt main_v34 main_v35
  let main_c_13 : IVec S_ 1 := constantI S_ 1 1#1
  let main_v37 : IVec S_ 1 := (fun x v => Host.reduce IntOp.andi x v reducesTo_S4x128x64_S_d0_1_2 h_S_) main_v36 main_c_13
  let main_v38 : IVec S_ 1 := andi main_v33 main_v37
  let main_v39 : FVec F S4x64 .f32 := Host.absf main_arg8
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  main_v43

def fn_part1 {F : FTy → Type} [FloatOps F] (main_arg4 : FVec F S8192x8192 .f32) (main_arg5 : FVec F S4x64x128 .f32) (main_arg6 : FVec F S4x128 .f32) (main_arg7 : FVec F S4x128x64 .f32) (main_arg8 : FVec F S4x64 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S4x64x128 .f32 := Host.absf main_arg5
  let main_cst_8 : FVec F S_ .f32 := constant S_ .f32 0x7F800000#32
  let main_v25 : FVec F S4x64x128 .f32 := broadcastInDim S4x64x128 ![] bcast_S_S4x64x128 main_cst_8
  let main_v26 : IVec S4x64x128 1 := cmpf .olt main_v24 main_v25
  let main_c_9 : IVec S_ 1 := constantI S_ 1 1#1
  let main_v27 : IVec S_ 1 := (fun x v => Host.reduce IntOp.andi x v reducesTo_S4x64x128_S_d0_1_2 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_v33

def fn {F : FTy → Type} [FloatOps F] (main_arg0 : FVec F S8192x48 .f32) (main_arg1 : FVec F S8192x16 .f32) (main_arg2 : FVec F S8192x8192 .f32) (main_arg3 : FVec F S8192x8192 .f32) (main_arg4 : FVec F S8192x8192 .f32) (main_arg5 : FVec F S4x64x128 .f32) (main_arg6 : FVec F S4x128 .f32) (main_arg7 : FVec F S4x128x64 .f32) (main_arg8 : FVec F S4x64 .f32) : IVec S_ 1 :=
  let main_v0 : FVec F S8192x48 .f32 := Host.absf main_arg0
  let main_cst : FVec F S_ .f32 := constant S_ .f32 0x7F800000#32
  let main_v1 : FVec F S8192x48 .f32 := broadcastInDim S8192x48 ![] bcast_S_S8192x48 main_cst
  let main_v2 : IVec S8192x48 1 := cmpf .olt main_v0 main_v1
  let main_c : IVec S_ 1 := constantI S_ 1 1#1
  let main_v3 : IVec S_ 1 := (fun x v => Host.reduce IntOp.andi x v reducesTo_S8192x48_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_v13 main_v16
-- ==== Kernel.lean ====
abbrev S8192x48 : Shape := ⟨2, ![8192, 48]⟩
abbrev S8192x16 : Shape := ⟨2, ![8192, 16]⟩
abbrev S8192x8192 : Shape := ⟨2, ![8192, 8192]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S8192x64 : Shape := ⟨2, ![8192, 64]⟩
abbrev S1024x1024 : Shape := ⟨2, ![1024, 1024]⟩
abbrev S1024x64 : Shape := ⟨2, ![1024, 64]⟩
abbrev S1x64x128 : Shape := ⟨3, ![1, 64, 128]⟩
abbrev S64x128 : Shape := ⟨2, ![64, 128]⟩
abbrev S1024x128 : Shape := ⟨2, ![1024, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩

abbrev nBuf : Space → Nat
  | .hbm => 11
  | .vmem => 16
  | .smem => 0
  | _ => 0

abbrev bufTy : (tb : Table) → Fin (tcTables nBuf tb) → BufTy
  | .hbm, ⟨0, _⟩ => ⟨S8192x48, .f32⟩
  | .hbm, ⟨1, _⟩ => ⟨S8192x16, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S4x64x128, .f32⟩
  | .hbm, ⟨6, _⟩ => ⟨S4x128, .f32⟩
  | .hbm, ⟨7, _⟩ => ⟨S4x128x64, .f32⟩
  | .hbm, ⟨8, _⟩ => ⟨S4x64, .f32⟩
  | .hbm, ⟨9, _⟩ => ⟨S8192x64, .f32⟩
  | .hbm, ⟨10, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8192x64, .f32⟩
  | .local _ .vmem, ⟨7, _⟩ => ⟨S4x64x128, .f32⟩
  | .local _ .vmem, ⟨8, _⟩ => ⟨S4x128, .f32⟩
  | .local _ .vmem, ⟨9, _⟩ => ⟨S4x128x64, .f32⟩
  | .local _ .vmem, ⟨10, _⟩ => ⟨S4x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | _, _ => ⟨S8192x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_21 : BitVec 32 := 0#32
  let v35 : BitVec 1 := Scalar.cmpi .ne v34 c0_i32_21
  v35

def k0_mult2 (i : grid0.Coords) : BitVec 32 :=
  let arg0 : BitVec 32 := BitVec.ofNat 32 (i 0).val
  let c1024_i32_22 : BitVec 32 := 1024#32
  let v36 : BitVec 32 := Scalar.muli arg0 c1024_i32_22
  v36
def k0_off2 (i : grid0.Coords) : Fin 2 → Nat :=
  let arg0 : BitVec 32 := BitVec.ofNat 32 (i 0).val
  let c1024_i32_22 : BitVec 32 := 1024#32
  let v36 : BitVec 32 := Scalar.muli arg0 c1024_i32_22
  let v37 : BitVec 32 := v36
  let v38 : Index := Scalar.indexCast v37
  let c0_23 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  concatenates_S8192x48_S8192x16_S8192x64_d1 : Shape.Concatenates [S8192x48, S8192x16] S8192x64 1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  inb_S4x128x64_S1x128x64_0_0_0 : ∀ a, (![0, 0, 0] : Fin 3 → Nat) a + S1x128x64.size a ≤ S4x128x64.size a
  h_S1x128x64 : 0 < S1x128x64.numel
  shapeCasts_S1x128x64_S128x64 : S1x128x64.ShapeCasts S128x64
  inb_S4x64_S1x64_0_0 : ∀ a, (![0, 0] : Fin 2 → Nat) a + S1x64.size a ≤ S4x64.size a
  h_S1x64 : 0 < S1x64.numel
  shapeCasts_S1x64_S64 : S1x64.ShapeCasts S64
  shapeCasts_S64_S1x64 : S64.ShapeCasts S1x64
  broadcasts_S1x64_S1024x64 : S1x64.Broadcasts S1024x64
  inb_S4x64x128_S1x64x128_1_0_0 : ∀ a, (![1, 0, 0] : Fin 3 → Nat) a + S1x64x128.size a ≤ S4x64x128.size a
  inb_S4x128_S1x128_1_0 : ∀ a, (![1, 0] : Fin 2 → Nat) a + S1x128.size a ≤ S4x128.size a
  inb_S4x128x64_S1x128x64_1_0_0 : ∀ a, (![1, 0, 0] : Fin 3 → Nat) a + S1x128x64.size a ≤ S4x128x64.size a
  inb_S4x64_S1x64_1_0 : ∀ a, (![1, 0] : Fin 2 → Nat) a + S1x64.size a ≤ S4x64.size a
  inb_S4x64x128_S1x64x128_2_0_0 : ∀ a, (![2, 0, 0] : Fin 3 → Nat) a + S1x64x128.size a ≤ S4x64x128.size a
  inb_S4x128_S1x128_2_0 : ∀ a, (![2, 0] : Fin 2 → Nat) a + S1x128.size a ≤ S4x128.size a
  inb_S4x128x64_S1x128x64_2_0_0 : ∀ a, (![2, 0, 0] : Fin 3 → Nat) a + S1x128x64.size a ≤ S4x128x64.size a
  inb_S4x64_S1x64_2_0 : ∀ a, (![2, 0] : Fin 2 → Nat) a + S1x64.size a ≤ S4x64.size a
  inb_S4x64x128_S1x64x128_3_0_0 : ∀ a, (![3, 0, 0] : Fin 3 → Nat) a + S1x64x128.size a ≤ S4x64x128.size a
  inb_S4x128_S1x128_3_0 : ∀ a, (![3, 0] : Fin 2 → Nat) a + S1x128.size a ≤ S4x128.size a
  inb_S4x128x64_S1x128x64_3_0_0 : ∀ a, (![3, 0, 0] : Fin 3 → Nat) a + S1x128x64.size a ≤ S4x128x64.size a
  inb_S4x64_S1x64_3_0 : ∀ a, (![3, 0] : Fin 2 → Nat) a + S1x64.size a ≤ S4x64.size a
  dot_S1024x1024_S1024x64_S1024x64_1_0_0_1_n_n_wf : DotDims.WF S1024x1024 S1024x64 S1024x64 [1] [0] [0] [1] [] []
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S8192x64.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .f32 = 32 ∨ (Rect.block (s := S8192x64) S8192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64x128.size a ≤ S4x64x128.size a
  hwx0_4 : ∀ i : grid0.Coords, EltTy.bits .f32 = 32 ∨ (Rect.block (s := S4x64x128) S4x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x128.size a
  hwx0_5 : ∀ i : grid0.Coords, EltTy.bits .f32 = 32 ∨ (Rect.block (s := S4x128) S4x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128x64.size a ≤ S4x128x64.size a
  hwx0_6 : ∀ i : grid0.Coords, EltTy.bits .f32 = 32 ∨ (Rect.block (s := S4x128x64) S4x128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x64.size a ≤ S4x64.size a
  hwx0_7 : ∀ i : grid0.Coords, EltTy.bits .f32 = 32 ∨ (Rect.block (s := S4x64) S4x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S8192x64.size a
  hwx0_8 : ∀ i : grid0.Coords, EltTy.bits .f32 = 32 ∨ (Rect.block (s := S8192x64) S1024x64.size (cc0_transform_8 i) (hinb0_8 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S4x128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S4x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x48 : Shape := ⟨2, ![8192, 48]⟩
abbrev S8192x16 : Shape := ⟨2, ![8192, 16]⟩
abbrev S8192x8192 : Shape := ⟨2, ![8192, 8192]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S8192x64 : Shape := ⟨2, ![8192, 64]⟩
abbrev S1x8192x64 : Shape := ⟨3, ![1, 8192, 64]⟩
abbrev S4x8192x64 : Shape := ⟨3, ![4, 8192, 64]⟩
abbrev S4x8192x128 : Shape := ⟨3, ![4, 8192, 128]⟩
abbrev S4x1x128 : Shape := ⟨3, ![4, 1, 128]⟩
abbrev S_ : Shape := ⟨0, ![]⟩
abbrev S4x1x64 : Shape := ⟨3, ![4, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S8192x48, .f32⟩
  | .hbm, ⟨1, _⟩ => ⟨S8192x16, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S4x64x128, .f32⟩
  | .hbm, ⟨6, _⟩ => ⟨S4x128, .f32⟩
  | .hbm, ⟨7, _⟩ => ⟨S4x128x64, .f32⟩
  | .hbm, ⟨8, _⟩ => ⟨S4x64, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S1x8192x64, .f32⟩
  | .hbm, ⟨14, _⟩ => ⟨S1x8192x64, .f32⟩
  | .hbm, ⟨15, _⟩ => ⟨S1x8192x64, .f32⟩
  | .hbm, ⟨16, _⟩ => ⟨S1x8192x64, .f32⟩
  | .hbm, ⟨17, _⟩ => ⟨S4x8192x64, .f32⟩
  | .hbm, ⟨18, _⟩ => ⟨S4x8192x128, .f32⟩
  | .hbm, ⟨19, _⟩ => ⟨S4x1x128, .f32⟩
  | .hbm, ⟨20, _⟩ => ⟨S4x8192x128, .f32⟩
  | .hbm, ⟨21, _⟩ => ⟨S4x8192x128, .f32⟩
  | .hbm, ⟨22, _⟩ => ⟨S_, .f32⟩
  | .hbm, ⟨23, _⟩ => ⟨S4x8192x128, .f32⟩
  | .hbm, ⟨24, _⟩ => ⟨S4x8192x128, .f32⟩
  | .hbm, ⟨25, _⟩ => ⟨S4x8192x64, .f32⟩
  | .hbm, ⟨26, _⟩ => ⟨S4x1x64, .f32⟩
  | .hbm, ⟨27, _⟩ => ⟨S4x8192x64, .f32⟩
  | .hbm, ⟨28, _⟩ => ⟨S4x8192x64, .f32⟩
  | .hbm, ⟨29, _⟩ => ⟨S_, .f32⟩
  | .hbm, ⟨30, _⟩ => ⟨S8192x64, .f32⟩
  | _, _ => ⟨S8192x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  concatenates_S8192x48_S8192x16_S8192x64_d1 : Shape.Concatenates [S8192x48, S8192x16] S8192x64 1
  bcast_S8192x64_S1x8192x64_1_2 : S8192x64.BroadcastsInDim S1x8192x64 (![1, 2] : Fin 2 → Fin S1x8192x64.rank)
  concatenates_S1x8192x64_S1x8192x64_S1x8192x64_S1x8192x64_S4x8192x64_d0 : Shape.Concatenates [S1x8192x64, S1x8192x64, S1x8192x64, S1x8192x64] S4x8192x64 0
  bcast_S4x128_S4x1x128_0_2 : S4x128.BroadcastsInDim S4x1x128 (![0, 2] : Fin 2 → Fin S4x1x128.rank)
  bcast_S4x1x128_S4x8192x128_0_1_2 : S4x1x128.BroadcastsInDim S4x8192x128 (![0, 1, 2] : Fin 3 → Fin S4x8192x128.rank)
  bcast_S_S4x8192x128 : S_.BroadcastsInDim S4x8192x128 (![] : Fin 0 → Fin S4x8192x128.rank)
  bcast_S4x64_S4x1x64_0_2 : S4x64.BroadcastsInDim S4x1x64 (![0, 2] : Fin 2 → Fin S4x1x64.rank)
  bcast_S4x1x64_S4x8192x64_0_1_2 : S4x1x64.BroadcastsInDim S4x8192x64 (![0, 1, 2] : Fin 3 → Fin S4x8192x64.rank)
  reducesTo_S4x8192x64_S8192x64_d0 : S4x8192x64.ReducesTo [0] S8192x64
  h_S_ : 0 < S_.numel
  dot_S8192x8192_S8192x64_S8192x64_1_0_0_1_n_n_wf : DotDims.WF S8192x8192 S8192x64 S8192x64 [1] [0] [0] [1] [] []
  dot_S4x8192x64_S4x64x128_S4x8192x128_2_1_1_2_0_0_wf : DotDims.WF S4x8192x64 S4x64x128 S4x8192x128 [2] [1] [1] [2] [0] [0]
  dot_S4x8192x128_S4x128x64_S4x8192x64_2_1_1_2_0_0_wf : DotDims.WF S4x8192x128 S4x128x64 S4x8192x64 [2] [1] [1] [2] [0] [0]

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S4x8192x64_S4x64x128_S4x8192x128_2_1_1_2_0_0 : DotDims S4x8192x64 S4x64x128 S4x8192x128 where
  lhsContracting := [2]
  rhsContracting := [1]
  lhsNonContracting := [1]
  rhsNonContracting := [2]
  lhsBatch := [0]
  rhsBatch := [0]
  wf := dot_S4x8192x64_S4x64x128_S4x8192x128_2_1_1_2_0_0_wf
def dot_S4x8192x128_S4x128x64_S4x8192x64_2_1_1_2_0_0 : DotDims S4x8192x128 S4x128x64 S4x8192x64 where
  lhsContracting := [2]
  rhsContracting := [1]
  lhsNonContracting := [1]
  rhsNonContracting := [2]
  lhsBatch := [0]
  rhsBatch := [0]
  wf := dot_S4x8192x128_S4x128x64_S4x8192x64_2_1_1_2_0_0_wf

class Facts : Prop extends Facts₀ where

variable [Facts]
-- ==== Proof.Pieces.lean ====
/-
  What one grid point leaves behind, as values.

  At every point the body adds, into each of three 1024 × 64 accumulators, the product of that point's 1024 × 1024
  block of one hop matrix with the 1024 rows of the feature matrix that the block's columns meet (the run of rows
  starting at 1024 · k, k the point's column-block coordinate). At a point with k = 0 the accumulators are first set
  to zero; at a point with k = 7 the four two-layer branches are then applied — branch 0 to the feature rows of the
  point's own row block, branches 1–3 to the three accumulators as they now stand — and their sum is stored as the
  output block. The lemmas below read these facts off the stores each case of the body performs; they hold at every
  float instance.
-/
import proofs.«151574_j70961449664572_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl

/-- The 1024 feature rows met by the columns of the point's hop blocks: rows 1024 · k onward. -/
def featRun (i : grid0.Coords) (x3 : Vec F S8192x64 .f32) : Vec F S1024x64 .f32 :=
  View.ld x3 (Rect.unit (s := S8192x64) (k0_off1 i) S1024x64.size (k0_off1_inb i))

/-- The 1024 feature rows of the point's own row block: rows 1024 · i onward (read only where k = 7). -/
def featOwn (i : grid0.Coords) (hk : k0_cond2 i = 1#1) (x3 : Vec F S8192x64 .f32) : Vec F S1024x64 .f32 :=
  View.ld x3 (Rect.unit (s := S8192x64) (k0_off2 i) S1024x64.size (k0_off2_inb i hk))

/-- One accumulation step of the first accumulator: the old value plus the hop block times the feature run. -/
def step0 (i : grid0.Coords) (x3 : Vec F S8192x64 .f32) (acc : Vec F S1024x64 .f32) (hop : Vec F S1024x1024 .f32) :
    Vec F S1024x64 .f32 := k0_pay12 (featRun i x3) acc hop

/-- … of the second. -/
def step1 (i : grid0.Coords) (x3 : Vec F S8192x64 .f32) (acc : Vec F S1024x64 .f32) (hop : Vec F S1024x1024 .f32) :
    Vec F S1024x64 .f32 := k0_pay13 (featRun i x3) acc hop

/-- … of the third. -/
def step2 (i : grid0.Coords) (x3 : Vec F S8192x64 .f32) (acc : Vec F S1024x64 .f32) (hop : Vec F S1024x1024 .f32) :
    Vec F S1024x64 .f32 := k0_pay1 (k0_pay14 (featRun i x3) acc hop)

/-- The output block stored where k = 7, from the three accumulators as the point leaves them and the parameters:
    the four branches' outputs added onto zero in branch order. -/
def outBlock (i : grid0.Coords) (hk : k0_cond2 i = 1#1) (x3 : Vec F S8192x64 .f32) (x4 : Vec F S4x64x128 .f32)
    (x5 : Vec F S4x128 .f32) (x6 : Vec F S4x128x64 .f32) (x7 : Vec F S4x64 .f32) (s0 s1 s2 : Vec F S1024x64 .f32) :
    Vec F S1024x64 .f32 :=
  k0_pay2 s2
    (k0_pay6
      (k0_pay3 (featOwn i hk x3)
        (View.ld x4 (Rect.unit (s := S4x64x128) ![0, 0, 0] S1x64x128.size inb_S4x64x128_S1x64x128_0_0_0))
        (View.ld x5 (Rect.unit (s := S4x128) ![0, 0] S1x128.size inb_S4x128_S1x128_0_0))
        (View.ld x6 (Rect.unit (s := S4x128x64) ![0, 0, 0] S1x128x64.size inb_S4x128x64_S1x128x64_0_0_0))
        (View.ld x7 (Rect.unit (s := S4x64) ![0, 0] S1x64.size inb_S4x64_S1x64_0_0)))
      (k0_pay4 s0)
      (k0_pay5 (View.ld x4 (Rect.unit (s := S4x64x128) ![1, 0, 0] S1x64x128.size inb_S4x64x128_S1x64x128_1_0_0)))
      (View.ld x5 (Rect.unit (s := S4x128) ![1, 0] S1x128.size inb_S4x128_S1x128_1_0))
      (View.ld x6 (Rect.unit (s := S4x128x64) ![1, 0, 0] S1x128x64.size inb_S4x128x64_S1x128x64_1_0_0))
      (View.ld x7 (Rect.unit (s := S4x64) ![1, 0] S1x64.size inb_S4x64_S1x64_1_0)))
    (k0_pay7 s1
      (View.ld x4 (Rect.unit (s := S4x64x128) ![2, 0, 0] S1x64x128.size inb_S4x64x128_S1x64x128_2_0_0))
      (View.ld x5 (Rect.unit (s := S4x128) ![2, 0] S1x128.size inb_S4x128_S1x128_2_0))
      (View.ld x6 (Rect.unit (s := S4x128x64) ![2, 0, 0] S1x128x64.size inb_S4x128x64_S1x128x64_2_0_0)))
    (View.ld x7 (Rect.unit (s := S4x64) ![2, 0] S1x64.size inb_S4x64_S1x64_2_0))
    (View.ld x4 (Rect.unit (s := S4x64x128) ![3, 0, 0] S1x64x128.size inb_S4x64x128_S1x64x128_3_0_0))
    (View.ld x5 (Rect.unit (s := S4x128) ![3, 0] S1x128.size inb_S4x128_S1x128_3_0))
    (View.ld x6 (Rect.unit (s := S4x128x64) ![3, 0, 0] S1x128x64.size inb_S4x128x64_S1x128x64_3_0_0))
    (View.ld x7 (Rect.unit (s := S4x64) ![3, 0] S1x64.size inb_S4x64_S1x64_3_0))

/-- Where k = 0 (and k ≠ 7): the first accumulator is zeroed, then takes its step from zero. -/
theorem first_0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : cond0_0 i) (hc1 : ¬cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) :
    sout0_A_0 c i a2 h2 a3 h3 a4 h4 a5 h5 a6 h6 a7 h7 a8 h8 a9 h9 a10 h10 a11 h11 a12 h12 a13 h13 hc0 hc1 x0 x1 x2 x3 x4 x5 x6 x7 = step0 i x3 k0_pay8 x0 := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S1024x64) hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where k = 0 (and k ≠ 7): the second accumulator is zeroed, then takes its step from zero. -/
theorem first_1 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : cond0_0 i) (hc1 : ¬cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) :
    sout0_A_1 c i a2 h2 a3 h3 a4 h4 a5 h5 a6 h6 a7 h7 a8 h8 a9 h9 a10 h10 a11 h11 a12 h12 a13 h13 hc0 hc1 x0 x1 x2 x3 x4 x5 x6 x7 = step1 i x3 k0_pay9 x1 := by
  unfold sout0_A_1
  rw [View.read_writes_eq_canon _ _ _ (scover0_A_1 c i a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S1024x64) hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where k = 0 (and k ≠ 7): the third accumulator is zeroed, then takes its step from zero. -/
theorem first_2 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : cond0_0 i) (hc1 : ¬cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) :
    sout0_A_2 c i a2 h2 a3 h3 a4 h4 a5 h5 a6 h6 a7 h7 a8 h8 a9 h9 a10 h10 a11 h11 a12 h12 a13 h13 hc0 hc1 x0 x1 x2 x3 x4 x5 x6 x7 = step2 i x3 k0_pay10 x2 := by
  unfold sout0_A_2
  rw [View.read_writes_eq_canon _ _ _ (scover0_A_2 c i a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S1024x64) hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where 0 < k < 7: the first accumulator takes its step from what the point before left. -/
theorem middle_0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : ¬cond0_0 i) (hc1 : ¬cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) (xs0 xs1 xs2 : Vec F S1024x64 .f32) :
    sout0_B_0 c i a2 h2 a3 h3 a4 h4 a5 h5 a6 h6 a7 h7 a8 h8 a9 h9 a10 h10 a11 h11 a12 h12 a13 h13 hc0 hc1 x0 x1 x2 x3 x4 x5 x6 x7 xs0 xs1 xs2 = step0 i x3 xs0 x0 := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 x0 x1 x2 x3 x4 x5 x6 x7 xs0 xs1 xs2)]
  unfold kernelRun0_B
  dsimp only
  sl_unfold_words
  rw [View.canon_unit_zero hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where 0 < k < 7: the second accumulator takes its step from what the point before left. -/
theorem middle_1 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : ¬cond0_0 i) (hc1 : ¬cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) (xs0 xs1 xs2 : Vec F S1024x64 .f32) :
    sout0_B_1 c i a2 h2 a3 h3 a4 h4 a5 h5 a6 h6 a7 h7 a8 h8 a9 h9 a10 h10 a11 h11 a12 h12 a13 h13 hc0 hc1 x0 x1 x2 x3 x4 x5 x6 x7 xs0 xs1 xs2 = step1 i x3 xs1 x1 := by
  unfold sout0_B_1
  rw [View.read_writes_eq_canon _ _ _ (scover0_B_1 c i a2 h2 a3 h3 a4 h4 a5 h5 a6 h6 a7 h7 a8 h8 a9 h9 a10 h10 a11 h11 a12 h12 a13 h13 hc0 hc1 x0 x1 x2 x3 x4 x5 x6 x7 xs0 xs1 xs2)]
  unfold kernelRun0_B
  dsimp only
  sl_unfold_words
  rw [View.canon_unit_zero hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where 0 < k < 7: the third accumulator takes its step from what the point before left. -/
theorem middle_2 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : ¬cond0_0 i) (hc1 : ¬cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) (xs0 xs1 xs2 : Vec F S1024x64 .f32) :
    sout0_B_2 c i a2 h2 a3 h3 a4 h4 a5 h5 a6 h6 a7 h7 a8 h8 a9 h9 a10 h10 a11 h11 a12 h12 a13 h13 hc0 hc1 x0 x1 x2 x3 x4 x5 x6 x7 xs0 xs1 xs2 = step2 i x3 xs2 x2 := by
  unfold sout0_B_2
  rw [View.read_writes_eq_canon _ _ _ (scover0_B_2 c i a2 h2 a3 h3 a4 h4 a5 h5 a6 h6 a7 h7 a8 h8 a9 h9 a10 h10 a11 h11 a12 h12 a13 h13 hc0 hc1 x0 x1 x2 x3 x4 x5 x6 x7 xs0 xs1 xs2)]
  unfold kernelRun0_B
  dsimp only
  sl_unfold_words
  rw [View.canon_unit_zero hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where k = 7: the first accumulator takes its step from what the point before left. -/
theorem last_0 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : ¬cond0_0 i) (hc1 : cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) (xs0 xs1 xs2 : Vec F S1024x64 .f32) :
    sout0_C_0 c i a2 h2 a3 h3 a4 h4 a5 h5 a6 h6 a7 h7 a8 h8 a9 h9 a10 h10 a11 h11 a12 h12 a13 h13 hc0 hc1 x0 x1 x2 x3 x4 x5 x6 x7 xs0 xs1 xs2 = step0 i x3 xs0 x0 := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 x0 x1 x2 x3 x4 x5 x6 x7 xs0 xs1 xs2)]
  unfold kernelRun0_C
  dsimp only
  sl_unfold_words
  rw [View.canon_unit_zero hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where k = 7: the second accumulator takes its step from what the point before left. -/
theorem last_1 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : ¬cond0_0 i) (hc1 : cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) (xs0 xs1 xs2 : Vec F S1024x64 .f32) :
    sout0_C_1 c i a2 h2 a3 h3 a4 h4 a5 h5 a6 h6 a7 h7 a8 h8 a9 h9 a10 h10 a11 h11 a12 h12 a13 h13 hc0 hc1 x0 x1 x2 x3 x4 x5 x6 x7 xs0 xs1 xs2 = step1 i x3 xs1 x1 := by
  unfold sout0_C_1
  rw [View.read_writes_eq_canon _ _ _ (scover0_C_1 c i a2 h2 a3 h3 a4 h4 a5 h5 a6 h6 a7 h7 a8 h8 a9 h9 a10 h10 a11 h11 a12 h12 a13 h13 hc0 hc1 x0 x1 x2 x3 x4 x5 x6 x7 xs0 xs1 xs2)]
  unfold kernelRun0_C
  dsimp only
  sl_unfold_words
  rw [View.canon_unit_zero hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where k = 7: the third accumulator takes its step from what the point before left. -/
theorem last_2 (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : ¬cond0_0 i) (hc1 : cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) (xs0 xs1 xs2 : Vec F S1024x64 .f32) :
    sout0_C_2 c i a2 h2 a3 h3 a4 h4 a5 h5 a6 h6 a7 h7 a8 h8 a9 h9 a10 h10 a11 h11 a12 h12 a13 h13 hc0 hc1 x0 x1 x2 x3 x4 x5 x6 x7 xs0 xs1 xs2 = step2 i x3 xs2 x2 := by
  unfold sout0_C_2
  rw [View.read_writes_eq_canon _ _ _ (scover0_C_2 c i a2 h2 a3 h3 a4 h4 a5 h5 a6 h6 a7 h7 a8 h8 a9 h9 a10 h10 a11 h11 a12 h12 a13 h13 hc0 hc1 x0 x1 x2 x3 x4 x5 x6 x7 xs0 xs1 xs2)]
  unfold kernelRun0_C
  dsimp only
  sl_unfold_words
  rw [View.canon_unit_zero hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

/-- Where k = 7: the output block is the four branches applied to the feature rows of the point's row block and to the
    three accumulators after their last step. -/
theorem last_out (c : Dev nD) (i : grid0.Coords) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (a5 : Memref sig .tc .vmem S8192x64 .f32) (h5 : a5.IsWhole) (a6 : Memref sig .tc .vmem S4x64x128 .f32) (h6 : a6.IsWhole) (a7 : Memref sig .tc .vmem S4x128 .f32) (h7 : a7.IsWhole) (a8 : Memref sig .tc .vmem S4x128x64 .f32) (h8 : a8.IsWhole) (a9 : Memref sig .tc .vmem S4x64 .f32) (h9 : a9.IsWhole) (a10 : Memref sig .tc .vmem S1024x64 .f32) (h10 : a10.IsWhole) (a11 : Memref sig .tc .vmem S1024x64 .f32) (h11 : a11.IsWhole) (a12 : Memref sig .tc .vmem S1024x64 .f32) (h12 : a12.IsWhole) (a13 : Memref sig .tc .vmem S1024x64 .f32) (h13 : a13.IsWhole) (hc0 : ¬cond0_0 i) (hc1 : cond0_1 i)
    (x0 x1 x2 : Vec F S1024x1024 .f32) (x3 : Vec F S8192x64 .f32) (x4 : Vec F S4x64x128 .f32) (x5 : Vec F S4x128 .f32) (x6 : Vec F S4x128x64 .f32) (x7 : Vec F S4x64 .f32) (xs0 xs1 xs2 : Vec F S1024x64 .f32) :
    out0_C_8 c i a2 h2 a3 h3 a4 h4 a5 h5 a6 h6 a7 h7 a8 h8 a9 h9 a10 h10 a11 h11 a12 h12 a13 h13 hc0 hc1 x0 x1 x2 x3 x4 x5 x6 x7 xs0 xs1 xs2
      = outBlock i hc1 x3 x4 x5 x6 x7 (step0 i x3 xs0 x0) (step1 i x3 xs1 x1) (step2 i x3 xs2 x2) := by
  unfold out0_C_8
  rw [View.read_writes_eq_canon _ _ _ (cover0_C_8 c i a2 h2 a3 h3 a4 h4 a5 h5 a6 h6 a7 h7 a8 h8 a9 h9 a10 h10 a11 h11 a12 h12 a13 h13 hc0 hc1 x0 x1 x2 x3 x4 x5 x6 x7 xs0 xs1 xs2)]
  unfold kernelRun0_C
  dsimp only
  sl_unfold_words
  rw [View.canon_unit_zero hz2]
  simp only [View.readCov_unit_zero (S := S1024x64) _ hz2, View.readAt_eq_ld, h2.read_unread, h3.read_unread, h4.read_unread, h5.read_unread, h6.read_unread, h7.read_unread, h8.read_unread, h9.read_unread, h11.read_unread, h12.read_unread, h13.read_unread, View.ld_unit_zero (S := S1024x64) hz2, View.ld_unit_zero (S := S1024x1024) hz2]
  rfl

end Cert.KernelIdeal.Pieces

end
-- ==== Proof.Blocks.lean ====
/-
  What the body's input blocks are, as entries of the arrays.

  Grid point t has row-block coordinate ⌊t / 8⌋ and column-block coordinate t mod 8. Its block of a hop matrix holds the
  entries at rows 1024 · ⌊t / 8⌋ + r and columns 1024 · (t mod 8) + q; the feature matrix and the four parameter arrays
  are staged whole, so their blocks are the arrays themselves. The run of feature rows the body slices for the
  accumulation starts at row 1024 · (t mod 8), the one for branch 0 at row 1024 · ⌊t / 8⌋; a slab of a parameter array
  at leading offset b is that array at leading coordinate b. The feature matrix itself is the join of the node
  features and the walk features, written by the one host operation before the grid runs.
-/
import proofs.«151574_j70961449664572_2_alg».proof.Proof.Pieces
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- The array row under row r of point n's row block. -/
def rowOf (n : ℕ) (r : Fin 1024) : Fin 8192 := ⟨(n / 8 % 8) * 1024 + r.val, by have := r.isLt; omega⟩

/-- The array column (or feature-matrix row) under column q of point n's column block. -/
def colOf (n : ℕ) (q : Fin 1024) : Fin 8192 := ⟨(n % 8) * 1024 + q.val, by have := q.isLt; omega⟩

/-- The hop windows' block indices at point t are (⌊t / 8⌋, t mod 8); the other input windows' are zero. -/
theorem index_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 2) = t.val / 8 ∧ win0_2.index t (1 : Fin 2) = t.val % 8)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = t.val / 8 ∧ win0_8.index t (1 : Fin 2) = 0) :=
  (by decide +kernel : ∀ t : Fin grid0.N, _)

/-- The two dynamic row offsets the body computes at point t: 1024 · (t mod 8) and 1024 · ⌊t / 8⌋, column offset zero. -/
theorem offset_facts : ∀ t : Fin cfg0.N,
    (k0_off1 (grid0.coords t) (0 : Fin 2) = t.val % 8 * 1024 ∧ k0_off1 (grid0.coords t) (1 : Fin 2) = 0)
    ∧ (k0_off2 (grid0.coords t) (0 : Fin 2) = t.val / 8 * 1024 ∧ k0_off2 (grid0.coords t) (1 : Fin 2) = 0) :=
  (by decide +kernel : ∀ t : Fin grid0.N, _)

theorem lt64 (t : Fin cfg0.N) : t.val < 64 := lt_of_lt_of_eq t.isLt N_0

/-! ## The hop blocks -/

theorem hop1_blk (c : Dev nD) (t : Fin cfg0.N) (r q : Fin 1024) :
    (iblk m c 0 t : Vec F S1024x1024 .f32) (ix2 r q) = V m c main_arg2 (ix2 (rowOf t.val r) (colOf t.val q)) := by
  unfold iblk
  rw [View.read_apply]
  show V m c main_arg2 _ = V m c main_arg2 _
  refine congrArg (V m c main_arg2) (funext fun a => Fin.ext ?_)
  have hi := (index_facts t).1
  have hN := lt64 t
  match a with
  | ⟨0, _⟩ => show win0_0.index t 0 * 1024 + 1 * r.val = (t.val / 8 % 8) * 1024 + r.val; rw [hi.1]; omega
  | ⟨1, _⟩ => show win0_0.index t 1 * 1024 + 1 * q.val = (t.val % 8) * 1024 + q.val; rw [hi.2]; omega

theorem hop2_blk (c : Dev nD) (t : Fin cfg0.N) (r q : Fin 1024) :
    (iblk m c 1 t : Vec F S1024x1024 .f32) (ix2 r q) = V m c main_arg3 (ix2 (rowOf t.val r) (colOf t.val q)) := by
  unfold iblk
  rw [View.read_apply]
  show V m c main_arg3 _ = V m c main_arg3 _
  refine congrArg (V m c main_arg3) (funext fun a => Fin.ext ?_)
  have hi := (index_facts t).2.1
  have hN := lt64 t
  match a with
  | ⟨0, _⟩ => show win0_1.index t 0 * 1024 + 1 * r.val = (t.val / 8 % 8) * 1024 + r.val; rw [hi.1]; omega
  | ⟨1, _⟩ => show win0_1.index t 1 * 1024 + 1 * q.val = (t.val % 8) * 1024 + q.val; rw [hi.2]; omega

theorem hop3_blk (c : Dev nD) (t : Fin cfg0.N) (r q : Fin 1024) :
    (iblk m c 2 t : Vec F S1024x1024 .f32) (ix2 r q) = V m c main_arg4 (ix2 (rowOf t.val r) (colOf t.val q)) := by
  unfold iblk
  rw [View.read_apply]
  show V m c main_arg4 _ = V m c main_arg4 _
  refine congrArg (V m c main_arg4) (funext fun a => Fin.ext ?_)
  have hi := (index_facts t).2.2.1
  have hN := lt64 t
  match a with
  | ⟨0, _⟩ => show win0_2.index t 0 * 1024 + 1 * r.val = (t.val / 8 % 8) * 1024 + r.val; rw [hi.1]; omega
  | ⟨1, _⟩ => show win0_2.index t 1 * 1024 + 1 * q.val = (t.val % 8) * 1024 + q.val; rw [hi.2]; omega

/-! ## The arrays staged whole -/

theorem feat_blk (c : Dev nD) (t : Fin cfg0.N) (j : S8192x64.Idx) :
    (iblk m c 3 t : Vec F S8192x64 .f32) j = V m c main_v0 j := by
  unfold iblk
  rw [View.read_apply]
  show V m c main_v0 _ = V m c main_v0 _
  refine congrArg (V m c main_v0) (funext fun a => Fin.ext ?_)
  have hi := (index_facts t).2.2.2.1
  match a with
  | ⟨0, _⟩ => show win0_3.index t 0 * 8192 + 1 * (j 0).val = (j 0).val; rw [hi.1]; omega
  | ⟨1, _⟩ => show win0_3.index t 1 * 64 + 1 * (j 1).val = (j 1).val; rw [hi.2]; omega

theorem W1_blk (c : Dev nD) (t : Fin cfg0.N) (j : S4x64x128.Idx) :
    (iblk m c 4 t : Vec F S4x64x128 .f32) j = V m c main_arg5 j := by
  unfold iblk
  rw [View.read_apply]
  show V m c main_arg5 _ = V m c main_arg5 _
  refine congrArg (V m c main_arg5) (funext fun a => Fin.ext ?_)
  have hi := (index_facts t).2.2.2.2.1
  match a with
  | ⟨0, _⟩ => show win0_4.index t 0 * 4 + 1 * (j 0).val = (j 0).val; rw [hi.1]; omega
  | ⟨1, _⟩ => show win0_4.index t 1 * 64 + 1 * (j 1).val = (j 1).val; rw [hi.2.1]; omega
  | ⟨2, _⟩ => show win0_4.index t 2 * 128 + 1 * (j 2).val = (j 2).val; rw [hi.2.2]; omega

theorem b1_blk (c : Dev nD) (t : Fin cfg0.N) (j : S4x128.Idx) :
    (iblk m c 5 t : Vec F S4x128 .f32) j = V m c main_arg6 j := by
  unfold iblk
  rw [View.read_apply]
  show V m c main_arg6 _ = V m c main_arg6 _
  refine congrArg (V m c main_arg6) (funext fun a => Fin.ext ?_)
  have hi := (index_facts t).2.2.2.2.2.1
  match a with
  | ⟨0, _⟩ => show win0_5.index t 0 * 4 + 1 * (j 0).val = (j 0).val; rw [hi.1]; omega
  | ⟨1, _⟩ => show win0_5.index t 1 * 128 + 1 * (j 1).val = (j 1).val; rw [hi.2]; omega

theorem W2_blk (c : Dev nD) (t : Fin cfg0.N) (j : S4x128x64.Idx) :
    (iblk m c 6 t : Vec F S4x128x64 .f32) j = V m c main_arg7 j := by
  unfold iblk
  rw [View.read_apply]
  show V m c main_arg7 _ = V m c main_arg7 _
  refine congrArg (V m c main_arg7) (funext fun a => Fin.ext ?_)
  have hi := (index_facts t).2.2.2.2.2.2.1
  match a with
  | ⟨0, _⟩ => show win0_6.index t 0 * 4 + 1 * (j 0).val = (j 0).val; rw [hi.1]; omega
  | ⟨1, _⟩ => show win0_6.index t 1 * 128 + 1 * (j 1).val = (j 1).val; rw [hi.2.1]; omega
  | ⟨2, _⟩ => show win0_6.index t 2 * 64 + 1 * (j 2).val = (j 2).val; rw [hi.2.2]; omega

theorem b2_blk (c : Dev nD) (t : Fin cfg0.N) (j : S4x64.Idx) :
    (iblk m c 7 t : Vec F S4x64 .f32) j = V m c main_arg8 j := by
  unfold iblk
  rw [View.read_apply]
  show V m c main_arg8 _ = V m c main_arg8 _
  refine congrArg (V m c main_arg8) (funext fun a => Fin.ext ?_)
  have hi := (index_facts t).2.2.2.2.2.2.2.1
  match a with
  | ⟨0, _⟩ => show win0_7.index t 0 * 4 + 1 * (j 0).val = (j 0).val; rw [hi.1]; omega
  | ⟨1, _⟩ => show win0_7.index t 1 * 64 + 1 * (j 1).val = (j 1).val; rw [hi.2]; omega

/-! ## The two runs of feature rows -/

theorem featRun_blk (c : Dev nD) (t : Fin cfg0.N) (q : Fin 1024) (f : Fin 64) :
    featRun (grid0.coords t) (iblk m c 3 t) (ix2 q f) = V m c main_v0 (ix2 (colOf t.val q) f) := by
  show (iblk m c 3 t : Vec F S8192x64 .f32) _ = _
  rw [feat_blk]
  refine congrArg (V m c main_v0) (funext fun a => Fin.ext ?_)
  have ho := (offset_facts t).1
  match a with
  | ⟨0, _⟩ => show k0_off1 (grid0.coords t) 0 + 1 * q.val = (t.val % 8) * 1024 + q.val; rw [ho.1]; omega
  | ⟨1, _⟩ => show k0_off1 (grid0.coords t) 1 + 1 * f.val = f.val; rw [ho.2]; omega

theorem featOwn_blk (c : Dev nD) (t : Fin cfg0.N) (hk : k0_cond2 (grid0.coords t) = 1#1) (r : Fin 1024) (f : Fin 64) :
    featOwn (grid0.coords t) hk (iblk m c 3 t) (ix2 r f) = V m c main_v0 (ix2 (rowOf t.val r) f) := by
  show (iblk m c 3 t : Vec F S8192x64 .f32) _ = _
  rw [feat_blk]
  refine congrArg (V m c main_v0) (funext fun a => Fin.ext ?_)
  have ho := (offset_facts t).2
  have hN := lt64 t
  match a with
  | ⟨0, _⟩ => show k0_off2 (grid0.coords t) 0 + 1 * r.val = (t.val / 8 % 8) * 1024 + r.val; rw [ho.1]; omega
  | ⟨1, _⟩ => show k0_off2 (grid0.coords t) 1 + 1 * f.val = f.val; rw [ho.2]; omega

/-! ## Slabs of the parameter arrays -/

theorem W1_slab (X : Vec F S4x64x128 .f32) (b : ℕ) (hb : b < 4) (inb : ∀ a, (![b, 0, 0] : Fin 3 → ℕ) a + S1x64x128.size a ≤ S4x64x128.size a)
    (f : Fin 64) (h : Fin 128) :
    View.ld X (Rect.unit (s := S4x64x128) ![b, 0, 0] S1x64x128.size inb) (ix3 (0 : Fin 1) f h) = X (ix3 ⟨b, hb⟩ f h) := by
  show X _ = X _
  refine congrArg X (funext fun a => Fin.ext ?_)
  match a with
  | ⟨0, _⟩ => show b + 1 * 0 = b; omega
  | ⟨1, _⟩ => show 0 + 1 * f.val = f.val; omega
  | ⟨2, _⟩ => show 0 + 1 * h.val = h.val; omega

theorem W2_slab (X : Vec F S4x128x64 .f32) (b : ℕ) (hb : b < 4) (inb : ∀ a, (![b, 0, 0] : Fin 3 → ℕ) a + S1x128x64.size a ≤ S4x128x64.size a)
    (h : Fin 128) (o : Fin 64) :
    View.ld X (Rect.unit (s := S4x128x64) ![b, 0, 0] S1x128x64.size inb) (ix3 (0 : Fin 1) h o) = X (ix3 ⟨b, hb⟩ h o) := by
  show X _ = X _
  refine congrArg X (funext fun a => Fin.ext ?_)
  match a with
  | ⟨0, _⟩ => show b + 1 * 0 = b; omega
  | ⟨1, _⟩ => show 0 + 1 * h.val = h.val; omega
  | ⟨2, _⟩ => show 0 + 1 * o.val = o.val; omega

theorem b1_slab (X : Vec F S4x128 .f32) (b : ℕ) (hb : b < 4) (inb : ∀ a, (![b, 0] : Fin 2 → ℕ) a + S1x128.size a ≤ S4x128.size a)
    (h : Fin 128) :
    View.ld X (Rect.unit (s := S4x128) ![b, 0] S1x128.size inb) (ix2 (0 : Fin 1) h) = X (ix2 ⟨b, hb⟩ h) := by
  show X _ = X _
  refine congrArg X (funext fun a => Fin.ext ?_)
  match a with
  | ⟨0, _⟩ => show b + 1 * 0 = b; omega
  | ⟨1, _⟩ => show 0 + 1 * h.val = h.val; omega

theorem b2_slab (X : Vec F S4x64 .f32) (b : ℕ) (hb : b < 4) (inb : ∀ a, (![b, 0] : Fin 2 → ℕ) a + S1x64.size a ≤ S4x64.size a)
    (o : Fin 64) :
    View.ld X (Rect.unit (s := S4x64) ![b, 0] S1x64.size inb) (ix2 (0 : Fin 1) o) = X (ix2 ⟨b, hb⟩ o) := by
  show X _ = X _
  refine congrArg X (funext fun a => Fin.ext ?_)
  match a with
  | ⟨0, _⟩ => show b + 1 * 0 = b; omega
  | ⟨1, _⟩ => show 0 + 1 * o.val = o.val; omega

/-! ## The feature matrix as the grid finds it -/

/-- The host operation before the grid joins the node features and the walk features along the feature axis. -/
theorem feat_eq (c : Dev nD) :
    (V m c main_v0 : S8192x64.Idx → Elt F .f32)
      = concatenate S8192x64 1 [⟨S8192x48, m ((c : Thread nD τ).loc main_arg0)⟩, ⟨S8192x16, m ((c : Thread nD τ).loc main_arg1)⟩]
          concatenates_S8192x48_S8192x16_S8192x64_d1 := by
  dsimp only [Gen.V, Gen.hostOps0]
  after_results

end Cert.KernelIdeal.Blocks

end
-- ==== Proof.LibRowOps.lean ====
/-
  Rows of a matrix at the ideal values: a matrix product into a zero accumulator read at an entry as the sum over the
  contracted axis (also against a transposed right factor), a row's maximum and a row's sum spread back over the row's
  columns (the keepdims column [m] → [m,1] → [m,n]), each read at an entry (r, c) with the coordinates written out.
  Nothing here mentions a program: the shapes are literal ranks with symbolic extents.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

/-- In a plain M×K by K×N product the left operand's row coordinate is the output's row. -/
theorem plain_lhs_row {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- … and the right operand's column coordinate is the output's column. -/
theorem plain_rhs_col {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The product of an M×K and a K×N matrix into the zero matrix, at entry (r, c): the sum over k of (r, k) times (k, c). -/
theorem plain_matmul_apply {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact plain_rhs_col _ _)
  rw [el, er]

/-- The same against a right factor given as an N×K matrix transposed: the sum over k of (r, k) times (c, k). -/
theorem plain_matmul_transposed_apply {M K N : Nat} {φ₁ φ₂ : FTy} (prec : Option ContractPrecision)
    (lhs : FVec Ideal ⟨2, ![M, K]⟩ φ₁) (b : FVec Ideal ⟨2, ![N, K]⟩ φ₂)
    (h : (⟨2, ![N, K]⟩ : Shape).Transposes [1, 0] ⟨2, ![K, N]⟩) (r : Fin M) (c : Fin N) :
    matmul (DotDims.plain M K N) prec lhs (transpose ⟨2, ![K, N]⟩ [1, 0] b h) (constant (F := Ideal) ⟨2, ![M, N]⟩ .f32 0x00000000#32) (ix2 r c)
      = ∑ k : Fin K, lhs (ix2 r k) * b (ix2 c k) := by
  refine (plain_matmul_apply prec lhs _ r c).trans (Finset.sum_congr rfl fun k _ => ?_)
  exact congrArg (lhs (ix2 r k) * ·) (transpose_ix2_apply b h k c)

/-- A column of row values [m] viewed [m,1] and spread over n columns reads, at (r, c), the row's value. -/
theorem column_spread_apply {α : Type} {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩ v h1) h2 (ix2 r c) = v (ix1 r) := by
  refine (broadcastTo_apply _ h2 (ix2 r c) (ix2 r (0 : Fin 1)) fun a => ?_).trans ?_
  · match a with
    | ⟨0, _⟩ =>
      show r.val = if M = 1 then 0 else r.val
      split
      · have := r.isLt; omega
      · rfl
    | ⟨1, _⟩ => show 0 = if (1 : Nat) = 1 then 0 else c.val; rw [if_pos rfl]
  · refine shapeCast_apply v h1 _ _ ?_
    rw [Shape.rowMajor_val_one, Shape.rowMajor_val_two]
    show r.val = r.val * 1 + 0
    omega

/-- A row's maximum from the accumulator's value, joined once more with a second bound `lo`, spread back over the row. -/
theorem row_max_spread_apply {M N : Nat} (src : FVec Ideal ⟨2, ![M, N]⟩ .f32) (lo acc : BitVec (FTy.bits .f32))
    (h : (⟨2, ![M, N]⟩ : Shape).Reduces [1] ⟨1, ![M]⟩) (hφ : FKind.Formats .f32) (hacc : acc = FKind.maximumf.neutral .f32 hφ)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩
        (maximumf (broadcast ⟨1, ![M]⟩ (Scalar.ofBits (F := Ideal) .f32 lo)) (multiReduction .maximumf [1] ⟨1, ![M]⟩ src acc h hφ hacc)) h1) h2 (ix2 r c)
      = max (Ideal.ofBits .f32 lo) ((Finset.univ : Finset (Fin N)).fold max (Ideal.ofBits .f32 acc) fun q => src (ix2 r q)) := by
  refine (column_spread_apply _ h1 h2 r c).trans ?_
  show max (Ideal.ofBits .f32 lo) (multiReduction .maximumf [1] ⟨1, ![M]⟩ src acc h hφ hacc (ix1 r)) = _
  refine congrArg (max (Ideal.ofBits .f32 lo)) ?_
  refine (Ideal.multiReduction_maximumf_single src acc h hφ hacc (ix1 r)).trans ?_
  refine congrArg (Finset.fold max _ · _) (funext fun q => congrArg src (funext fun a => Fin.ext ?_))
  match a with
  | ⟨0, _⟩ => rfl
  | ⟨1, _⟩ => rfl

/-- A row's sum spread back over the row. -/
theorem row_sum_spread_apply {M N : Nat} (src : FVec Ideal ⟨2, ![M, N]⟩ .f32) (acc : BitVec (FTy.bits .f32))
    (h : (⟨2, ![M, N]⟩ : Shape).Reduces [1] ⟨1, ![M]⟩) (hφ : FKind.Formats .f32) (hacc : acc = FKind.add.neutral .f32 hφ)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩ (multiReduction .add [1] ⟨1, ![M]⟩ src acc h hφ hacc) h1) h2 (ix2 r c)
      = ∑ q : Fin N, src (ix2 r q) := by
  refine (column_spread_apply _ h1 h2 r c).trans ?_
  refine (Ideal.multiReduction_add_single src acc h hφ hacc (ix1 r)).trans ?_
  refine Finset.sum_congr rfl fun q _ => congrArg src (funext fun a => Fin.ext ?_)
  match a with
  | ⟨0, _⟩ => rfl
  | ⟨1, _⟩ => rfl

/-- On the host: the maximum over the last axis of a rank-3 array from an initial value, at (b, c), is the fold of `max` from
    that value over the last coordinate. -/
theorem host_row_max_apply {B M N : Nat} (x : (⟨3, ![B, M, N]⟩ : Shape).Idx → EReal) (init : (⟨0, ![]⟩ : Shape).Idx → EReal)
    (h' : (⟨3, ![B, M, N]⟩ : Shape).ReducesTo [2] ⟨2, ![B, M]⟩) (h : (⟨3, ![B, M, N]⟩ : Shape).Reduces [2] ⟨2, ![B, M]⟩)
    (hu : 0 < (⟨0, ![]⟩ : Shape).numel) (b : Fin B) (c : Fin M) :
    Host.reduce (FloatOps.maximumf (F := Ideal) (φ := .f32)) x init h' hu (ix2 b c)
      = (Finset.univ : Finset (Fin N)).fold max (init (Shape.Idx.first hu)) fun q => x (ix3 b c q) := by
  refine (Host.reduce_eq_fold_single (FloatOps.maximumf (F := Ideal) (φ := .f32)) x init h' h hu (ix2 b c)).trans ?_
  refine congrArg (Finset.fold max _ · _) (funext fun q => congrArg x (funext fun a => Fin.ext ?_))
  match a with
  | ⟨0, _⟩ => rfl
  | ⟨1, _⟩ => rfl
  | ⟨2, _⟩ => rfl

end Cert.RowOps

end
-- ==== Proof.PointValue.lean ====
/-
  One grid point's values at the exact instance, entry by entry.

  An accumulation step at (r, f) adds, to the accumulator's entry, the sum over the 1024 columns q of the hop block's
  entry (r, q) times the feature run's entry (q, f). A branch's two layers at (r, o): the hidden unit h is
  max (Σ_f inp(r, f) · W1(f, h) + b1(h)) 0, and the output is Σ_h hidden(h) · W2(h, o) + b2(o); a change of float
  format is the identity here, a product into a zero accumulator is the plain sum of products, and the bias row
  broadcast down the 1024 rows reads the bias at the column.
-/
import proofs.«151574_j70961449664572_2_alg».proof.Proof.Pieces
import proofs.«151574_j70961449664572_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PointValue

open Cert.KernelIdeal Cert.KernelIdeal.Gen Cert.KernelIdeal.Pieces Cert.RowOps

/-- The three products of the body are plain matrix products: rows by columns over one contracted axis. -/
theorem dotK_eq : dot_S1024x1024_S1024x64_S1024x64_1_0_0_1_n_n = DotDims.plain 1024 1024 64 := rfl
theorem dot1_eq : dot_S1024x64_S64x128_S1024x128_1_0_0_1_n_n = DotDims.plain 1024 64 128 := rfl
theorem dot2_eq : dot_S1024x128_S128x64_S1024x64_1_0_0_1_n_n = DotDims.plain 1024 128 64 := rfl

/-! ## An accumulation step at an entry -/

theorem step0_apply (i : grid0.Coords) (x3 : Vec Ideal S8192x64 .f32) (acc : Vec Ideal S1024x64 .f32)
    (hop : Vec Ideal S1024x1024 .f32) (r : Fin 1024) (f : Fin 64) :
    step0 (F := Ideal) i x3 acc hop (ix2 r f)
      = acc (ix2 r f) + ∑ q : Fin 1024, hop (ix2 r q) * featRun (F := Ideal) i x3 (ix2 q f) := by
  show shapeCast S1024x64 (addf acc (matmul dot_S1024x1024_S1024x64_S1024x64_1_0_0_1_n_n none
      (truncf .bf16 hop bitsLt_bf16_f32)
      (truncf .bf16 (shapeCast S1024x64 (featRun (F := Ideal) i x3) shapeCasts_S1024x64_S1024x64) bitsLt_bf16_f32)
      (constant (F := Ideal) S1024x64 .f32 0x00000000#32))) shapeCasts_S1024x64_S1024x64 (ix2 r f) = _
  rw [shapeCast_self, shapeCast_self, dotK_eq]
  exact congrArg (acc (ix2 r f) + ·) (plain_matmul_apply none _ _ r f)

theorem step1_apply (i : grid0.Coords) (x3 : Vec Ideal S8192x64 .f32) (acc : Vec Ideal S1024x64 .f32)
    (hop : Vec Ideal S1024x1024 .f32) (r : Fin 1024) (f : Fin 64) :
    step1 (F := Ideal) i x3 acc hop (ix2 r f)
      = acc (ix2 r f) + ∑ q : Fin 1024, hop (ix2 r q) * featRun (F := Ideal) i x3 (ix2 q f) := by
  show shapeCast S1024x64 (addf acc (matmul dot_S1024x1024_S1024x64_S1024x64_1_0_0_1_n_n none
      (truncf .bf16 hop bitsLt_bf16_f32)
      (truncf .bf16 (shapeCast S1024x64 (featRun (F := Ideal) i x3) shapeCasts_S1024x64_S1024x64) bitsLt_bf16_f32)
      (constant (F := Ideal) S1024x64 .f32 0x00000000#32))) shapeCasts_S1024x64_S1024x64 (ix2 r f) = _
  rw [shapeCast_self, shapeCast_self, dotK_eq]
  exact congrArg (acc (ix2 r f) + ·) (plain_matmul_apply none _ _ r f)

theorem step2_apply (i : grid0.Coords) (x3 : Vec Ideal S8192x64 .f32) (acc : Vec Ideal S1024x64 .f32)
    (hop : Vec Ideal S1024x1024 .f32) (r : Fin 1024) (f : Fin 64) :
    step2 (F := Ideal) i x3 acc hop (ix2 r f)
      = acc (ix2 r f) + ∑ q : Fin 1024, hop (ix2 r q) * featRun (F := Ideal) i x3 (ix2 q f) := by
  show shapeCast S1024x64 (addf acc (matmul dot_S1024x1024_S1024x64_S1024x64_1_0_0_1_n_n none
      (truncf .bf16 hop bitsLt_bf16_f32)
      (truncf .bf16 (shapeCast S1024x64 (featRun (F := Ideal) i x3) shapeCasts_S1024x64_S1024x64) bitsLt_bf16_f32)
      (constant (F := Ideal) S1024x64 .f32 0x00000000#32))) shapeCasts_S1024x64_S1024x64 (ix2 r f) = _
  rw [shapeCast_self, shapeCast_self, dotK_eq]
  exact congrArg (acc (ix2 r f) + ·) (plain_matmul_apply none _ _ r f)

/-- The zero blocks the first point of a run stores read zero everywhere. -/
theorem zero0_apply (j : S1024x64.Idx) : k0_pay8 (F := Ideal) j = 0 := by
  show shapeCast S1024x64 (broadcast S1024x64 (Scalar.ofBits (F := Ideal) .f32 0x00000000#32)) shapeCasts_S1024x64_S1024x64 j = 0
  rw [shapeCast_self]; exact Ideal.ofBits_zero_f32
theorem zero1_apply (j : S1024x64.Idx) : k0_pay9 (F := Ideal) j = 0 := by
  show shapeCast S1024x64 (broadcast S1024x64 (Scalar.ofBits (F := Ideal) .f32 0x00000000#32)) shapeCasts_S1024x64_S1024x64 j = 0
  rw [shapeCast_self]; exact Ideal.ofBits_zero_f32
theorem zero2_apply (j : S1024x64.Idx) : k0_pay10 (F := Ideal) j = 0 := by
  show shapeCast S1024x64 (broadcast S1024x64 (Scalar.ofBits (F := Ideal) .f32 0x00000000#32)) shapeCasts_S1024x64_S1024x64 j = 0
  rw [shapeCast_self]; exact Ideal.ofBits_zero_f32

/-! ## A branch's two layers at an entry -/

/-- The second layer's product for an input block, a 64 × 128 weight matrix, a bias row and a [1, 128, 64] weight slab. -/
def layerMM (inp : FVec Ideal S1024x64 .bf16) (w1 : FVec Ideal S64x128 .f32) (bb1 : Vec Ideal S1x128 .f32)
    (w2 : Vec Ideal S1x128x64 .f32) : FVec Ideal S1024x64 .f32 :=
  matmul dot_S1024x128_S128x64_S1024x64_1_0_0_1_n_n none
    (truncf .bf16 (maximumf
      (addf (matmul dot_S1024x64_S64x128_S1024x128_1_0_0_1_n_n none inp (truncf .bf16 w1 bitsLt_bf16_f32)
          (constant (F := Ideal) S1024x128 .f32 0x00000000#32))
        (broadcastTo S1024x128 (shapeCast S1x128 (shapeCast S128 bb1 shapeCasts_S1x128_S128) shapeCasts_S128_S1x128)
          broadcasts_S1x128_S1024x128))
      (broadcast S1024x128 (Scalar.ofBits (F := Ideal) .f32 0x00000000#32))) bitsLt_bf16_f32)
    (truncf .bf16 (shapeCast S128x64 w2 shapeCasts_S1x128x64_S128x64) bitsLt_bf16_f32)
    (constant (F := Ideal) S1024x64 .f32 0x00000000#32)

/-- The output bias row broadcast down the rows. -/
def biasOut (bb2 : Vec Ideal S1x64 .f32) : FVec Ideal S1024x64 .f32 :=
  broadcastTo S1024x64 (shapeCast S1x64 (shapeCast S64 bb2 shapeCasts_S1x64_S64) shapeCasts_S64_S1x64)
    broadcasts_S1x64_S1024x64

theorem biasOut_apply (bb2 : Vec Ideal S1x64 .f32) (r : Fin 1024) (o : Fin 64) :
    biasOut bb2 (ix2 r o) = bb2 (ix2 (0 : Fin 1) o) :=
  (broadcastTo_1b_ab_apply _ broadcasts_S1x64_S1024x64 r o).trans
    ((shapeCast_a_1a_apply _ shapeCasts_S64_S1x64 (0 : Fin 1) o).trans (shapeCast_1a_a_apply bb2 shapeCasts_S1x64_S64 o))

theorem layerMM_apply (inp : FVec Ideal S1024x64 .bf16) (w1 : FVec Ideal S64x128 .f32) (bb1 : Vec Ideal S1x128 .f32)
    (w2 : Vec Ideal S1x128x64 .f32) (r : Fin 1024) (o : Fin 64) :
    layerMM inp w1 bb1 w2 (ix2 r o)
      = ∑ h : Fin 128, max ((∑ f : Fin 64, inp (ix2 r f) * w1 (ix2 f h)) + bb1 (ix2 (0 : Fin 1) h)) 0
          * w2 (ix3 (0 : Fin 1) h o) := by
  unfold layerMM
  rw [dot2_eq, dot1_eq]
  refine (plain_matmul_apply none _ _ r o).trans (Finset.sum_congr rfl fun h _ => ?_)
  have e1 : shapeCast S128x64 w2 shapeCasts_S1x128x64_S128x64 (ix2 h o) = w2 (ix3 (0 : Fin 1) h o) :=
    shapeCast_1ab_ab_apply w2 shapeCasts_S1x128x64_S128x64 h o
  have e2 : broadcastTo S1024x128 (shapeCast S1x128 (shapeCast S128 bb1 shapeCasts_S1x128_S128) shapeCasts_S128_S1x128)
      broadcasts_S1x128_S1024x128 (ix2 r h) = bb1 (ix2 (0 : Fin 1) h) :=
    (broadcastTo_1b_ab_apply _ broadcasts_S1x128_S1024x128 r h).trans
      ((shapeCast_a_1a_apply _ shapeCasts_S128_S1x128 (0 : Fin 1) h).trans (shapeCast_1a_a_apply bb1 shapeCasts_S1x128_S128 h))
  have e3 : matmul (DotDims.plain 1024 64 128) none inp (truncf .bf16 w1 bitsLt_bf16_f32)
      (constant (F := Ideal) S1024x128 .f32 0x00000000#32) (ix2 r h) = ∑ f : Fin 64, inp (ix2 r f) * w1 (ix2 f h) :=
    plain_matmul_apply none inp _ r h
  show max (matmul (DotDims.plain 1024 64 128) none inp (truncf .bf16 w1 bitsLt_bf16_f32)
        (constant (F := Ideal) S1024x128 .f32 0x00000000#32) (ix2 r h)
      + broadcastTo S1024x128 (shapeCast S1x128 (shapeCast S128 bb1 shapeCasts_S1x128_S128) shapeCasts_S128_S1x128)
        broadcasts_S1x128_S1024x128 (ix2 r h)) (Ideal.ofBits .f32 0x00000000#32)
      * shapeCast S128x64 w2 shapeCasts_S1x128x64_S128x64 (ix2 h o) = _
  rw [e1, e2, e3, Ideal.ofBits_zero_f32]

end Cert.KernelIdeal.PointValue

end
-- ==== Proof.Spec.lean ====
/-
  The function both programs compute, entry by entry, on the extended reals.

  X is the 8192 × 64 feature matrix (node features joined with walk features). Branch 0 reads X itself; branch j = 1, 2, 3
  reads hop_j · X, row n of hop_j against column f of X summed over all 8192 nodes. Each branch b sends row n of its
  input through its own two layers: h ↦ max (Σ_f inp(n, f) · W1(b, f, h) + b1(b, h)) 0, then
  o ↦ Σ_h hidden(h) · W2(b, h, o) + b2(b, o). The result at (n, o) is the four branch outputs added onto zero, in branch
  order.

  The only law needed to bring a tiled evaluation of hop_j · X to this form is that a sum over 8192 consecutive terms is
  the sum of its eight runs of 1024 — associativity and commutativity of addition, which hold on all extended reals,
  so no finiteness of the inputs is used.
-/
import Idealize.ShloMosaic.PureOps.Ideal
import Idealize.ShloMosaic.Lib.ValueIdx

noncomputable section

namespace Cert.Spec

open Idealize.ShloMosaic Idealize.ShloMosaic.ValueIdx

/-- One hop's aggregate at (n, f): row n of the hop matrix against column f of the features. -/
def agg (hop : (⟨2, ![8192, 8192]⟩ : Shape).Idx → EReal) (X : (⟨2, ![8192, 64]⟩ : Shape).Idx → EReal)
    (n : Fin 8192) (f : Fin 64) : EReal :=
  ∑ k : Fin 8192, hop (ix2 n k) * X (ix2 k f)

/-- The hidden layer of branch b on an input row: unit h. -/
def hidden (W1 : (⟨3, ![4, 64, 128]⟩ : Shape).Idx → EReal) (b1 : (⟨2, ![4, 128]⟩ : Shape).Idx → EReal)
    (b : Fin 4) (row : Fin 64 → EReal) (h : Fin 128) : EReal :=
  max ((∑ f : Fin 64, row f * W1 (ix3 b f h)) + b1 (ix2 b h)) 0

/-- Branch b's two layers on an input row: output feature o. -/
def branch (W1 : (⟨3, ![4, 64, 128]⟩ : Shape).Idx → EReal) (b1 : (⟨2, ![4, 128]⟩ : Shape).Idx → EReal)
    (W2 : (⟨3, ![4, 128, 64]⟩ : Shape).Idx → EReal) (b2 : (⟨2, ![4, 64]⟩ : Shape).Idx → EReal)
    (b : Fin 4) (row : Fin 64 → EReal) (o : Fin 64) : EReal :=
  (∑ h : Fin 128, hidden W1 b1 b row h * W2 (ix3 b h o)) + b2 (ix2 b o)

/-- The result at (n, o): the four branches added onto zero, in branch order. -/
def Gat (X : (⟨2, ![8192, 64]⟩ : Shape).Idx → EReal)
    (hop1 hop2 hop3 : (⟨2, ![8192, 8192]⟩ : Shape).Idx → EReal)
    (W1 : (⟨3, ![4, 64, 128]⟩ : Shape).Idx → EReal) (b1 : (⟨2, ![4, 128]⟩ : Shape).Idx → EReal)
    (W2 : (⟨3, ![4, 128, 64]⟩ : Shape).Idx → EReal) (b2 : (⟨2, ![4, 64]⟩ : Shape).Idx → EReal)
    (n : Fin 8192) (o : Fin 64) : EReal :=
  (((0 + branch W1 b1 W2 b2 0 (fun f => X (ix2 n f)) o)
      + branch W1 b1 W2 b2 1 (fun f => agg hop1 X n f) o)
      + branch W1 b1 W2 b2 2 (fun f => agg hop2 X n f) o)
      + branch W1 b1 W2 b2 3 (fun f => agg hop3 X n f) o

/-- The whole result array. -/
def G (X : (⟨2, ![8192, 64]⟩ : Shape).Idx → EReal)
    (hop1 hop2 hop3 : (⟨2, ![8192, 8192]⟩ : Shape).Idx → EReal)
    (W1 : (⟨3, ![4, 64, 128]⟩ : Shape).Idx → EReal) (b1 : (⟨2, ![4, 128]⟩ : Shape).Idx → EReal)
    (W2 : (⟨3, ![4, 128, 64]⟩ : Shape).Idx → EReal) (b2 : (⟨2, ![4, 64]⟩ : Shape).Idx → EReal) :
    (⟨2, ![8192, 64]⟩ : Shape).Idx → EReal :=
  fun j => Gat X hop1 hop2 hop3 W1 b1 W2 b2 (j 0) (j 1)

theorem G_ix2 (X : (⟨2, ![8192, 64]⟩ : Shape).Idx → EReal)
    (hop1 hop2 hop3 : (⟨2, ![8192, 8192]⟩ : Shape).Idx → EReal)
    (W1 : (⟨3, ![4, 64, 128]⟩ : Shape).Idx → EReal) (b1 : (⟨2, ![4, 128]⟩ : Shape).Idx → EReal)
    (W2 : (⟨3, ![4, 128, 64]⟩ : Shape).Idx → EReal) (b2 : (⟨2, ![4, 64]⟩ : Shape).Idx → EReal)
    (n : Fin 8192) (o : Fin 64) :
    G X hop1 hop2 hop3 W1 b1 W2 b2 (ix2 n o) = Gat X hop1 hop2 hop3 W1 b1 W2 b2 n o := rfl

/-! ## A long sum, run by run -/

/-- The first N of 8192 terms, added up. -/
def upto (g : Fin 8192 → EReal) (N : ℕ) : EReal :=
  ∑ k ∈ Finset.range N, if h : k < 8192 then g ⟨k, h⟩ else 0

theorem upto_zero (g : Fin 8192 → EReal) : upto g 0 = 0 := by
  unfold upto; rw [Finset.range_zero, Finset.sum_empty]

/-- Adding the next run of 1024 terms. -/
theorem upto_step (g : Fin 8192 → EReal) (kb : ℕ) (hkb : kb < 8) :
    upto g ((kb + 1) * 1024)
      = upto g (kb * 1024) + ∑ q : Fin 1024, g ⟨kb * 1024 + q.val, by have := q.isLt; omega⟩ := by
  unfold upto
  rw [show (kb + 1) * 1024 = kb * 1024 + 1024 by ring, Finset.sum_range_add]
  congr 1
  rw [← Fin.sum_univ_eq_sum_range (fun q => if h : kb * 1024 + q < 8192 then g ⟨kb * 1024 + q, h⟩ else 0) 1024]
  refine Finset.sum_congr rfl fun q _ => ?_
  have hq : kb * 1024 + q.val < 8192 := by have := q.isLt; omega
  rw [dif_pos hq]

/-- All eight runs: the whole sum. -/
theorem upto_full (g : Fin 8192 → EReal) : upto g (8 * 1024) = ∑ k : Fin 8192, g k := by
  unfold upto
  rw [show 8 * 1024 = 8192 by norm_num,
    ← Fin.sum_univ_eq_sum_range (fun k => if h : k < 8192 then g ⟨k, h⟩ else 0) 8192]
  refine Finset.sum_congr rfl fun k _ => ?_
  rw [dif_pos k.isLt]

end Cert.Spec

end
-- ==== Proof.Accum.lean ====
/-
  The three accumulators after every grid point.

  Fix a row r of the point's row block and a feature f. Write g_j(k) = hop_j(row, k) · X(k, f) for the 8192 terms of the
  entry (row, f) of hop_j · X, row = 1024 · ⌊t / 8⌋ + r. A point with t mod 8 = 0 leaves 0 + (terms 0 … 1023); every
  later point of the same run of eight adds its own 1024 terms to what the point before left. So after point n the
  accumulator holds the first (n mod 8 + 1) · 1024 terms, by induction on the point, and after the last point of a run
  it holds the whole entry of hop_j · X.
-/
import proofs.«151574_j70961449664572_2_alg».proof.Proof.Blocks
import proofs.«151574_j70961449664572_2_alg».proof.Proof.PointValue
import proofs.«151574_j70961449664572_2_alg».proof.Proof.Spec

set_option maxRecDepth 16384

noncomputable section

open Idealize.ShloMosaic Idealize.ShloMosaic.TcCoe Idealize.ShloMosaic.ValueIdx Idealize.SL.Sem

namespace Cert.KernelIdeal.Accum

open Cert.KernelIdeal Cert.KernelIdeal.Gen Cert.KernelIdeal.Pieces Cert.KernelIdeal.PointValue Cert.KernelIdeal.Blocks Cert.Spec

variable (m : (ℓ : Loc nD τ sig) → Buf (Elt Ideal) ℓ) (c : Dev nD)

/-- The k-th term of entry (n, f) of a hop matrix times the feature matrix. -/
def term (hop : S8192x8192.Idx → EReal) (X : S8192x64.Idx → EReal) (n : Fin 8192) (f : Fin 64) (k : Fin 8192) : EReal :=
  hop (ix2 n k) * X (ix2 k f)

/-- A point with t mod 8 = 0 leaves, in each accumulator, zero plus its own 1024 terms. -/
theorem after_first (t : Fin cfg0.N) (h0 : t.val % 8 = 0) (h1 : ¬t.val % 8 = 7) (r : Fin 1024) (f : Fin 64) :
    (outsAt0 (F := Ideal) m c t.val t.isLt).2.1 (ix2 r f) = 0 + ∑ q : Fin 1024, term (V m c main_arg2) (V m c main_v0) (rowOf t.val r) f (colOf t.val q)
    ∧ (outsAt0 (F := Ideal) m c t.val t.isLt).2.2.1 (ix2 r f) = 0 + ∑ q : Fin 1024, term (V m c main_arg3) (V m c main_v0) (rowOf t.val r) f (colOf t.val q)
    ∧ (outsAt0 (F := Ideal) m c t.val t.isLt).2.2.2 (ix2 r f) = 0 + ∑ q : Fin 1024, term (V m c main_arg4) (V m c main_v0) (rowOf t.val r) f (colOf t.val q) := by
  rw [outsAt0_A m c t h0 h1]
  dsimp only
  refine ⟨?_, ?_, ?_⟩
  · refine ((congrFun (first_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t)) (ix2 r f)).trans
      ((step0_apply (grid0.coords t) (iblk m c 3 t) (k0_pay8 (F := Ideal)) (iblk m c 0 t) r f).trans ?_))
    refine congrArg₂ (fun a b : EReal => a + b) (zero0_apply _) (Finset.sum_congr rfl fun q _ => ?_)
    exact congrArg₂ (fun a b : EReal => a * b) (hop1_blk m c t r q) (featRun_blk m c t q f)
  · refine ((congrFun (first_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t)) (ix2 r f)).trans
      ((step1_apply (grid0.coords t) (iblk m c 3 t) (k0_pay9 (F := Ideal)) (iblk m c 1 t) r f).trans ?_))
    refine congrArg₂ (fun a b : EReal => a + b) (zero1_apply _) (Finset.sum_congr rfl fun q _ => ?_)
    exact congrArg₂ (fun a b : EReal => a * b) (hop2_blk m c t r q) (featRun_blk m c t q f)
  · refine ((congrFun (first_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t)) (ix2 r f)).trans
      ((step2_apply (grid0.coords t) (iblk m c 3 t) (k0_pay10 (F := Ideal)) (iblk m c 2 t) r f).trans ?_))
    refine congrArg₂ (fun a b : EReal => a + b) (zero2_apply _) (Finset.sum_congr rfl fun q _ => ?_)
    exact congrArg₂ (fun a b : EReal => a * b) (hop3_blk m c t r q) (featRun_blk m c t q f)

/-- A point with t mod 8 ≠ 0 adds its own 1024 terms to what the point before left in each accumulator. -/
theorem after_next (t : Fin cfg0.N) (h0 : ¬t.val % 8 = 0) (r : Fin 1024) (f : Fin 64) :
    (outsAt0 (F := Ideal) m c t.val t.isLt).2.1 (ix2 r f) = (outsAt0 m c (t.val - 1) (Nat.lt_of_le_of_lt (Nat.sub_le _ _) t.isLt)).2.1 (ix2 r f) + ∑ q : Fin 1024, term (V m c main_arg2) (V m c main_v0) (rowOf t.val r) f (colOf t.val q)
    ∧ (outsAt0 (F := Ideal) m c t.val t.isLt).2.2.1 (ix2 r f) = (outsAt0 m c (t.val - 1) (Nat.lt_of_le_of_lt (Nat.sub_le _ _) t.isLt)).2.2.1 (ix2 r f) + ∑ q : Fin 1024, term (V m c main_arg3) (V m c main_v0) (rowOf t.val r) f (colOf t.val q)
    ∧ (outsAt0 (F := Ideal) m c t.val t.isLt).2.2.2 (ix2 r f) = (outsAt0 m c (t.val - 1) (Nat.lt_of_le_of_lt (Nat.sub_le _ _) t.isLt)).2.2.2 (ix2 r f) + ∑ q : Fin 1024, term (V m c main_arg4) (V m c main_v0) (rowOf t.val r) f (colOf t.val q) := by
  by_cases h1 : t.val % 8 = 7
  · rw [outsAt0_C m c t h0 h1]
    dsimp only
    refine ⟨?_, ?_, ?_⟩
    · refine ((congrFun (last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r f)).trans
        ((step0_apply (grid0.coords t) (iblk m c 3 t) (outsAt0 m c (t.val - 1) (Nat.lt_of_le_of_lt (Nat.sub_le _ _) t.isLt)).2.1 (iblk m c 0 t) r f).trans ?_))
      refine congrArg (fun s : EReal => (outsAt0 m c (t.val - 1) (Nat.lt_of_le_of_lt (Nat.sub_le _ _) t.isLt)).2.1 (ix2 r f) + s) (Finset.sum_congr rfl fun q _ => ?_)
      exact congrArg₂ (fun a b : EReal => a * b) (hop1_blk m c t r q) (featRun_blk m c t q f)
    · refine ((congrFun (last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r f)).trans
        ((step1_apply (grid0.coords t) (iblk m c 3 t) (outsAt0 m c (t.val - 1) (Nat.lt_of_le_of_lt (Nat.sub_le _ _) t.isLt)).2.2.1 (iblk m c 1 t) r f).trans ?_))
      refine congrArg (fun s : EReal => (outsAt0 m c (t.val - 1) (Nat.lt_of_le_of_lt (Nat.sub_le _ _) t.isLt)).2.2.1 (ix2 r f) + s) (Finset.sum_congr rfl fun q _ => ?_)
      exact congrArg₂ (fun a b : EReal => a * b) (hop2_blk m c t r q) (featRun_blk m c t q f)
    · refine ((congrFun (last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r f)).trans
        ((step2_apply (grid0.coords t) (iblk m c 3 t) (outsAt0 m c (t.val - 1) (Nat.lt_of_le_of_lt (Nat.sub_le _ _) t.isLt)).2.2.2 (iblk m c 2 t) r f).trans ?_))
      refine congrArg (fun s : EReal => (outsAt0 m c (t.val - 1) (Nat.lt_of_le_of_lt (Nat.sub_le _ _) t.isLt)).2.2.2 (ix2 r f) + s) (Finset.sum_congr rfl fun q _ => ?_)
      exact congrArg₂ (fun a b : EReal => a * b) (hop3_blk m c t r q) (featRun_blk m c t q f)
  · rw [outsAt0_B m c t h0 h1]
    dsimp only
    refine ⟨?_, ?_, ?_⟩
    · refine ((congrFun (middle_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r f)).trans
        ((step0_apply (grid0.coords t) (iblk m c 3 t) (outsAt0 m c (t.val - 1) (Nat.lt_of_le_of_lt (Nat.sub_le _ _) t.isLt)).2.1 (iblk m c 0 t) r f).trans ?_))
      refine congrArg (fun s : EReal => (outsAt0 m c (t.val - 1) (Nat.lt_of_le_of_lt (Nat.sub_le _ _) t.isLt)).2.1 (ix2 r f) + s) (Finset.sum_congr rfl fun q _ => ?_)
      exact congrArg₂ (fun a b : EReal => a * b) (hop1_blk m c t r q) (featRun_blk m c t q f)
    · refine ((congrFun (middle_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r f)).trans
        ((step1_apply (grid0.coords t) (iblk m c 3 t) (outsAt0 m c (t.val - 1) (Nat.lt_of_le_of_lt (Nat.sub_le _ _) t.isLt)).2.2.1 (iblk m c 1 t) r f).trans ?_))
      refine congrArg (fun s : EReal => (outsAt0 m c (t.val - 1) (Nat.lt_of_le_of_lt (Nat.sub_le _ _) t.isLt)).2.2.1 (ix2 r f) + s) (Finset.sum_congr rfl fun q _ => ?_)
      exact congrArg₂ (fun a b : EReal => a * b) (hop2_blk m c t r q) (featRun_blk m c t q f)
    · refine ((congrFun (middle_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r f)).trans
        ((step2_apply (grid0.coords t) (iblk m c 3 t) (outsAt0 m c (t.val - 1) (Nat.lt_of_le_of_lt (Nat.sub_le _ _) t.isLt)).2.2.2 (iblk m c 2 t) r f).trans ?_))
      refine congrArg (fun s : EReal => (outsAt0 m c (t.val - 1) (Nat.lt_of_le_of_lt (Nat.sub_le _ _) t.isLt)).2.2.2 (ix2 r f) + s) (Finset.sum_congr rfl fun q _ => ?_)
      exact congrArg₂ (fun a b : EReal => a * b) (hop3_blk m c t r q) (featRun_blk m c t q f)

/-- Adding point n's run of 1024 terms to the first (n mod 8) · 1024 gives the first (n mod 8 + 1) · 1024. -/
theorem add_run (g : Fin 8192 → EReal) (n : ℕ) (a : EReal) (ha : a = upto g (n % 8 * 1024)) :
    a + ∑ q : Fin 1024, g (colOf n q) = upto g ((n % 8 + 1) * 1024) := by
  rw [ha, upto_step g (n % 8) (Nat.mod_lt _ (by norm_num))]
  rfl

theorem rowOf_succ (n : ℕ) (h0 : ¬(n + 1) % 8 = 0) (r : Fin 1024) : rowOf (n + 1) r = rowOf n r :=
  Fin.ext (by show (n + 1) / 8 % 8 * 1024 + r.val = n / 8 % 8 * 1024 + r.val; omega)

/-- After point n each accumulator entry is the first (n mod 8 + 1) · 1024 terms of its row-by-column sum. -/
theorem partial_sums (n : ℕ) : ∀ (h : n < cfg0.N) (r : Fin 1024) (f : Fin 64),
    (outsAt0 (F := Ideal) m c n h).2.1 (ix2 r f) = upto (term (V m c main_arg2) (V m c main_v0) (rowOf n r) f) ((n % 8 + 1) * 1024)
    ∧ (outsAt0 (F := Ideal) m c n h).2.2.1 (ix2 r f) = upto (term (V m c main_arg3) (V m c main_v0) (rowOf n r) f) ((n % 8 + 1) * 1024)
    ∧ (outsAt0 (F := Ideal) m c n h).2.2.2 (ix2 r f) = upto (term (V m c main_arg4) (V m c main_v0) (rowOf n r) f) ((n % 8 + 1) * 1024) := by
  induction n with
  | zero =>
    intro h r f
    obtain ⟨e0, e1, e2⟩ := after_first m c ⟨0, h⟩ rfl (by show ¬0 % 8 = 7; decide) r f
    exact ⟨e0.trans (add_run (term (V m c main_arg2) (V m c main_v0) (rowOf 0 r) f) 0 0 (by rw [Nat.zero_mod, Nat.zero_mul, upto_zero])),
      e1.trans (add_run (term (V m c main_arg3) (V m c main_v0) (rowOf 0 r) f) 0 0 (by rw [Nat.zero_mod, Nat.zero_mul, upto_zero])),
      e2.trans (add_run (term (V m c main_arg4) (V m c main_v0) (rowOf 0 r) f) 0 0 (by rw [Nat.zero_mod, Nat.zero_mul, upto_zero]))⟩
  | succ n ih =>
    intro h r f
    by_cases h0 : (n + 1) % 8 = 0
    · have h1 : ¬(n + 1) % 8 = 7 := by omega
      obtain ⟨e0, e1, e2⟩ := after_first m c ⟨n + 1, h⟩ h0 h1 r f
      exact ⟨e0.trans (add_run (term (V m c main_arg2) (V m c main_v0) (rowOf (n + 1) r) f) (n + 1) 0 (by rw [h0, Nat.zero_mul, upto_zero])),
        e1.trans (add_run (term (V m c main_arg3) (V m c main_v0) (rowOf (n + 1) r) f) (n + 1) 0 (by rw [h0, Nat.zero_mul, upto_zero])),
        e2.trans (add_run (term (V m c main_arg4) (V m c main_v0) (rowOf (n + 1) r) f) (n + 1) 0 (by rw [h0, Nat.zero_mul, upto_zero]))⟩
    · obtain ⟨e0, e1, e2⟩ := after_next m c ⟨n + 1, h⟩ h0 r f
      obtain ⟨i0, i1, i2⟩ := ih (Nat.lt_of_succ_lt h) r f
      have hm : n % 8 + 1 = (n + 1) % 8 := by omega
      have hr : rowOf (n + 1) r = rowOf n r := rowOf_succ n h0 r
      refine ⟨e0.trans ?_, e1.trans ?_, e2.trans ?_⟩
      · exact add_run (term (V m c main_arg2) (V m c main_v0) (rowOf (n + 1) r) f) (n + 1) _ (by rw [← hm, hr]; exact i0)
      · exact add_run (term (V m c main_arg3) (V m c main_v0) (rowOf (n + 1) r) f) (n + 1) _ (by rw [← hm, hr]; exact i1)
      · exact add_run (term (V m c main_arg4) (V m c main_v0) (rowOf (n + 1) r) f) (n + 1) _ (by rw [← hm, hr]; exact i2)

/-- After the last point of a run of eight, each accumulator entry is the whole entry of its hop matrix times the features. -/
theorem full_sums (t : Fin cfg0.N) (h1 : t.val % 8 = 7) (r : Fin 1024) (f : Fin 64) :
    (outsAt0 (F := Ideal) m c t.val t.isLt).2.1 (ix2 r f) = agg (V m c main_arg2) (V m c main_v0) (rowOf t.val r) f
    ∧ (outsAt0 (F := Ideal) m c t.val t.isLt).2.2.1 (ix2 r f) = agg (V m c main_arg3) (V m c main_v0) (rowOf t.val r) f
    ∧ (outsAt0 (F := Ideal) m c t.val t.isLt).2.2.2 (ix2 r f) = agg (V m c main_arg4) (V m c main_v0) (rowOf t.val r) f := by
  obtain ⟨i0, i1, i2⟩ := partial_sums m c t.val t.isLt r f
  rw [h1] at i0 i1 i2
  exact ⟨i0.trans (upto_full _), i1.trans (upto_full _), i2.trans (upto_full _)⟩

end Cert.KernelIdeal.Accum

end
-- ==== Proof.OutValue.lean ====
/-
  The output block at an entry.

  Where the column-block coordinate is 7 the body stores, at (r, o), the four branch outputs added onto zero in branch
  order: branch 0 on row r of the point's own run of feature rows, branch j = 1, 2, 3 on row r of the j-th accumulator.
  Each branch reads its own slab of the four parameter arrays, the slab at leading coordinate b.
-/
import proofs.«151574_j70961449664572_2_alg».proof.Proof.Blocks
import proofs.«151574_j70961449664572_2_alg».proof.Proof.PointValue
import proofs.«151574_j70961449664572_2_alg».proof.Proof.Spec

noncomputable section

open Idealize.ShloMosaic Idealize.ShloMosaic.ValueIdx

namespace Cert.KernelIdeal.OutValue

open Cert.KernelIdeal Cert.KernelIdeal.Gen Cert.KernelIdeal.Pieces Cert.KernelIdeal.PointValue Cert.KernelIdeal.Blocks Cert.Spec

/-- One branch's two layers and output bias over its slabs of the parameter arrays, at (r, o), is the specification's branch. -/
theorem layer_branch (x4 : Vec Ideal S4x64x128 .f32) (x5 : Vec Ideal S4x128 .f32) (x6 : Vec Ideal S4x128x64 .f32)
    (x7 : Vec Ideal S4x64 .f32) (b : ℕ) (hb : b < 4)
    (inb4 : ∀ a, (![b, 0, 0] : Fin 3 → ℕ) a + S1x64x128.size a ≤ S4x64x128.size a)
    (inb5 : ∀ a, (![b, 0] : Fin 2 → ℕ) a + S1x128.size a ≤ S4x128.size a)
    (inb6 : ∀ a, (![b, 0, 0] : Fin 3 → ℕ) a + S1x128x64.size a ≤ S4x128x64.size a)
    (inb7 : ∀ a, (![b, 0] : Fin 2 → ℕ) a + S1x64.size a ≤ S4x64.size a)
    (inp : FVec Ideal S1024x64 .bf16) (r : Fin 1024) (o : Fin 64) :
    layerMM inp (shapeCast S64x128 (View.ld x4 (Rect.unit (s := S4x64x128) ![b, 0, 0] S1x64x128.size inb4)) shapeCasts_S1x64x128_S64x128)
        (View.ld x5 (Rect.unit (s := S4x128) ![b, 0] S1x128.size inb5))
        (View.ld x6 (Rect.unit (s := S4x128x64) ![b, 0, 0] S1x128x64.size inb6)) (ix2 r o)
      + biasOut (View.ld x7 (Rect.unit (s := S4x64) ![b, 0] S1x64.size inb7)) (ix2 r o)
    = branch x4 x5 x6 x7 ⟨b, hb⟩ (fun f => inp (ix2 r f)) o := by
  rw [layerMM_apply, biasOut_apply, b2_slab x7 b hb inb7 o]
  unfold Cert.Spec.branch Cert.Spec.hidden
  refine congrArg (· + x7 (ix2 ⟨b, hb⟩ o)) (Finset.sum_congr rfl fun h _ => ?_)
  rw [W2_slab x6 b hb inb6 h o, b1_slab x5 b hb inb5 h]
  refine congrArg (fun s : EReal => max (s + x5 (ix2 ⟨b, hb⟩ h)) 0 * x6 (ix3 ⟨b, hb⟩ h o)) (Finset.sum_congr rfl fun f _ => ?_)
  rw [shapeCast_1ab_ab_apply, W1_slab x4 b hb inb4 f h]

/-- The output block is the four branches' layers added onto a zero block, in branch order. -/
theorem outBlock_eq (i : grid0.Coords) (hk : k0_cond2 i = 1#1) (x3 : Vec Ideal S8192x64 .f32) (x4 : Vec Ideal S4x64x128 .f32)
    (x5 : Vec Ideal S4x128 .f32) (x6 : Vec Ideal S4x128x64 .f32) (x7 : Vec Ideal S4x64 .f32) (s0 s1 s2 : Vec Ideal S1024x64 .f32) :
    outBlock (F := Ideal) i hk x3 x4 x5 x6 x7 s0 s1 s2
      = addf (addf (addf (addf (broadcast S1024x64 (Scalar.ofBits (F := Ideal) .f32 0x00000000#32))
          (addf (layerMM (truncf .bf16 (shapeCast S1024x64 (featOwn (F := Ideal) i hk x3) shapeCasts_S1024x64_S1024x64) bitsLt_bf16_f32) (shapeCast S64x128 (View.ld x4 (Rect.unit (s := S4x64x128) ![0, 0, 0] S1x64x128.size inb_S4x64x128_S1x64x128_0_0_0)) shapeCasts_S1x64x128_S64x128) (View.ld x5 (Rect.unit (s := S4x128) ![0, 0] S1x128.size inb_S4x128_S1x128_0_0)) (View.ld x6 (Rect.unit (s := S4x128x64) ![0, 0, 0] S1x128x64.size inb_S4x128x64_S1x128x64_0_0_0))) (biasOut (View.ld x7 (Rect.unit (s := S4x64) ![0, 0] S1x64.size inb_S4x64_S1x64_0_0)))))
          (addf (layerMM (truncf .bf16 s0 bitsLt_bf16_f32) (shapeCast S64x128 (View.ld x4 (Rect.unit (s := S4x64x128) ![1, 0, 0] S1x64x128.size inb_S4x64x128_S1x64x128_1_0_0)) shapeCasts_S1x64x128_S64x128) (View.ld x5 (Rect.unit (s := S4x128) ![1, 0] S1x128.size inb_S4x128_S1x128_1_0)) (View.ld x6 (Rect.unit (s := S4x128x64) ![1, 0, 0] S1x128x64.size inb_S4x128x64_S1x128x64_1_0_0))) (biasOut (View.ld x7 (Rect.unit (s := S4x64) ![1, 0] S1x64.size inb_S4x64_S1x64_1_0)))))
          (addf (layerMM (truncf .bf16 s1 bitsLt_bf16_f32) (shapeCast S64x128 (View.ld x4 (Rect.unit (s := S4x64x128) ![2, 0, 0] S1x64x128.size inb_S4x64x128_S1x64x128_2_0_0)) shapeCasts_S1x64x128_S64x128) (View.ld x5 (Rect.unit (s := S4x128) ![2, 0] S1x128.size inb_S4x128_S1x128_2_0)) (View.ld x6 (Rect.unit (s := S4x128x64) ![2, 0, 0] S1x128x64.size inb_S4x128x64_S1x128x64_2_0_0))) (biasOut (View.ld x7 (Rect.unit (s := S4x64) ![2, 0] S1x64.size inb_S4x64_S1x64_2_0)))))
          (addf (layerMM (truncf .bf16 s2 bitsLt_bf16_f32) (shapeCast S64x128 (View.ld x4 (Rect.unit (s := S4x64x128) ![3, 0, 0] S1x64x128.size inb_S4x64x128_S1x64x128_3_0_0)) shapeCasts_S1x64x128_S64x128) (View.ld x5 (Rect.unit (s := S4x128) ![3, 0] S1x128.size inb_S4x128_S1x128_3_0)) (View.ld x6 (Rect.unit (s := S4x128x64) ![3, 0, 0] S1x128x64.size inb_S4x128x64_S1x128x64_3_0_0))) (biasOut (View.ld x7 (Rect.unit (s := S4x64) ![3, 0] S1x64.size inb_S4x64_S1x64_3_0)))) := rfl

theorem outBlock_apply (i : grid0.Coords) (hk : k0_cond2 i = 1#1) (x3 : Vec Ideal S8192x64 .f32) (x4 : Vec Ideal S4x64x128 .f32)
    (x5 : Vec Ideal S4x128 .f32) (x6 : Vec Ideal S4x128x64 .f32) (x7 : Vec Ideal S4x64 .f32) (s0 s1 s2 : Vec Ideal S1024x64 .f32)
    (r : Fin 1024) (o : Fin 64) :
    outBlock (F := Ideal) i hk x3 x4 x5 x6 x7 s0 s1 s2 (ix2 r o)
      = (((0 + branch x4 x5 x6 x7 0 (fun f => featOwn (F := Ideal) i hk x3 (ix2 r f)) o)
          + branch x4 x5 x6 x7 1 (fun f => s0 (ix2 r f)) o)
          + branch x4 x5 x6 x7 2 (fun f => s1 (ix2 r f)) o)
          + branch x4 x5 x6 x7 3 (fun f => s2 (ix2 r f)) o := by
  rw [outBlock_eq, shapeCast_self]
  show (((Ideal.ofBits .f32 0x00000000#32 + (_ + _)) + (_ + _)) + (_ + _)) + (_ + _) = _
  rw [layer_branch x4 x5 x6 x7 0 (by norm_num), layer_branch x4 x5 x6 x7 1 (by norm_num),
    layer_branch x4 x5 x6 x7 2 (by norm_num), layer_branch x4 x5 x6 x7 3 (by norm_num), Ideal.ofBits_zero_f32]
  rfl

end Cert.KernelIdeal.OutValue

end
-- ==== Proof.KernelValue.lean ====
/-
  The kernel's result array is the specification's function of its arguments.

  The output block of row block i is written back once, by the point with column-block coordinate 7, after the three
  accumulators have taken all eight steps: there each accumulator entry is the whole entry of hop_j · X, so the stored
  block at (r, o) is the specification at (1024 · i + r, o). The eight flushing points' blocks tile the 8192 rows, so
  the array after the run is the specification everywhere.
-/
import proofs.«151574_j70961449664572_2_alg».proof.Proof.Accum
import proofs.«151574_j70961449664572_2_alg».proof.Proof.OutValue
import proofs.«151574_j70961449664572_2_alg».proof.Proof.Gen.KernelIdeal.Value
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.KernelIdeal.Pieces Cert.KernelIdeal.PointValue Cert.KernelIdeal.Blocks
  Cert.KernelIdeal.Accum Cert.KernelIdeal.OutValue Cert.Spec

variable (m : (ℓ : Loc nD τ sig) → Buf (Elt Ideal) ℓ) (ρ : Dev nD → PrngReg)

/-- The specification of the arrays as the grid finds them. -/
def found (c : Dev nD) : S8192x64.Idx → EReal := G (V m c main_v0 : S8192x64.Idx → EReal) (V m c main_arg2 : S8192x8192.Idx → EReal) (V m c main_arg3 : S8192x8192.Idx → EReal) (V m c main_arg4 : S8192x8192.Idx → EReal) (V m c main_arg5 : S4x64x128.Idx → EReal) (V m c main_arg6 : S4x128.Idx → EReal) (V m c main_arg7 : S4x128x64.Idx → EReal) (V m c main_arg8 : S4x64.Idx → EReal)

/-- The specification of the argument arrays: the feature matrix is the join of the first two. -/
def result (c : Dev nD) : S8192x64.Idx → EReal :=
  G (concatenate S8192x64 1 [⟨S8192x48, (m ((c : Thread nD τ).loc main_arg0))⟩, ⟨S8192x16, (m ((c : Thread nD τ).loc main_arg1))⟩] concatenates_S8192x48_S8192x16_S8192x64_d1)
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem found_eq (c : Dev nD) : found m c = result m c := by
  unfold found result
  rw [feat_eq m c, V_main_arg2, V_main_arg3, V_main_arg4, V_main_arg5, V_main_arg6, V_main_arg7, V_main_arg8]

/-- At a point with column-block coordinate 7 the output block is the four branches over the point's own feature rows
    and the three accumulators as this point leaves them. -/
theorem out_last (c : Dev nD) (t : Fin cfg0.N) (h1 : t.val % 8 = 7) :
    (outsAt0 (F := Ideal) m c t.val t.isLt).1
      = outBlock (F := Ideal) (grid0.coords t) ((hcond0_1 t).mpr h1) (iblk m c 3 t) (iblk m c 4 t) (iblk m c 5 t) (iblk m c 6 t) (iblk m c 7 t)
          (outsAt0 (F := Ideal) m c t.val t.isLt).2.1 (outsAt0 (F := Ideal) m c t.val t.isLt).2.2.1 (outsAt0 (F := Ideal) m c t.val t.isLt).2.2.2 := by
  have h0 : ¬t.val % 8 = 0 := by omega
  rw [outsAt0_C m c t h0 h1]
  dsimp only
  rw [last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- … which at (r, o) is the specification at row 1024 · ⌊t / 8⌋ + r. -/
theorem out_at (c : Dev nD) (t : Fin cfg0.N) (h1 : t.val % 8 = 7) (y : S1024x64.Idx) :
    (outsAt0 (F := Ideal) m c t.val t.isLt).1 y
      = Gat (V m c main_v0 : S8192x64.Idx → EReal) (V m c main_arg2 : S8192x8192.Idx → EReal) (V m c main_arg3 : S8192x8192.Idx → EReal) (V m c main_arg4 : S8192x8192.Idx → EReal) (V m c main_arg5 : S4x64x128.Idx → EReal) (V m c main_arg6 : S4x128.Idx → EReal) (V m c main_arg7 : S4x128x64.Idx → EReal) (V m c main_arg8 : S4x64.Idx → EReal) (rowOf t.val (y 0)) (y 1) := by
  obtain ⟨r, o, rfl⟩ : ∃ (r : Fin 1024) (o : Fin 64), y = ix2 r o := ⟨y 0, y 1, eq_ix2 y⟩
  show (outsAt0 (F := Ideal) m c t.val t.isLt).1 (ix2 r o) = Gat (V m c main_v0 : S8192x64.Idx → EReal) (V m c main_arg2 : S8192x8192.Idx → EReal) (V m c main_arg3 : S8192x8192.Idx → EReal) (V m c main_arg4 : S8192x8192.Idx → EReal) (V m c main_arg5 : S4x64x128.Idx → EReal) (V m c main_arg6 : S4x128.Idx → EReal) (V m c main_arg7 : S4x128x64.Idx → EReal) (V m c main_arg8 : S4x64.Idx → EReal) (rowOf t.val r) o
  rw [out_last m c t h1]
  refine (outBlock_apply (grid0.coords t) ((hcond0_1 t).mpr h1) (iblk m c 3 t) (iblk m c 4 t) (iblk m c 5 t) (iblk m c 6 t) (iblk m c 7 t) _ _ _ r o).trans ?_
  have eW1 : (iblk m c 4 t : Vec Ideal S4x64x128 .f32) = V m c main_arg5 := funext (W1_blk m c t)
  have eb1 : (iblk m c 5 t : Vec Ideal S4x128 .f32) = V m c main_arg6 := funext (b1_blk m c t)
  have eW2 : (iblk m c 6 t : Vec Ideal S4x128x64 .f32) = V m c main_arg7 := funext (W2_blk m c t)
  have eb2 : (iblk m c 7 t : Vec Ideal S4x64 .f32) = V m c main_arg8 := funext (b2_blk m c t)
  have f0 : (fun f : Fin 64 => featOwn (F := Ideal) (grid0.coords t) ((hcond0_1 t).mpr h1) (iblk m c 3 t) (ix2 r f))
      = fun f => (V m c main_v0 : S8192x64.Idx → EReal) (ix2 (rowOf t.val r) f) := funext fun f => featOwn_blk m c t _ r f
  have f1 : (fun f : Fin 64 => (outsAt0 (F := Ideal) m c t.val t.isLt).2.1 (ix2 r f))
      = fun f => agg (V m c main_arg2 : S8192x8192.Idx → EReal) (V m c main_v0 : S8192x64.Idx → EReal) (rowOf t.val r) f := funext fun f => (full_sums m c t h1 r f).1
  have f2 : (fun f : Fin 64 => (outsAt0 (F := Ideal) m c t.val t.isLt).2.2.1 (ix2 r f))
      = fun f => agg (V m c main_arg3 : S8192x8192.Idx → EReal) (V m c main_v0 : S8192x64.Idx → EReal) (rowOf t.val r) f := funext fun f => (full_sums m c t h1 r f).2.1
  have f3 : (fun f : Fin 64 => (outsAt0 (F := Ideal) m c t.val t.isLt).2.2.2 (ix2 r f))
      = fun f => agg (V m c main_arg4 : S8192x8192.Idx → EReal) (V m c main_v0 : S8192x64.Idx → EReal) (rowOf t.val r) f := funext fun f => (full_sums m c t h1 r f).2.2
  rw [eW1, eb1, eW2, eb2, f0, f1, f2, f3]
  rfl

/-! ## From the blocks to the array -/

/-- What a flushing point writes back is its block of the specification. -/
theorem flushed_eq (c : Dev nD) (t : Fin cfg0.N) (hf : (cfg0.win 8).flush t = true) :
    (dats m 0 c).flushed 8 t = ((cfg0.win 8).blk t).view.read (Elt Ideal) (found m c) := by
  have h1 : t.val % 8 = 7 := (flush0_8 t).mp hf
  show (cfg0.win 8).cut (grid0.coords t) ((dats m 0 c).after 8 t) = _
  rw [after0_8]
  funext j
  show (outsAt0 (F := Ideal) m c t.val t.isLt).1 j = found m c (((cfg0.win 8).blk t).view.emb j)
  refine (out_at m c t h1 j).trans ?_
  have hi := (index_facts t).2.2.2.2.2.2.2.2
  have hN := lt64 t
  have he : ((cfg0.win 8).blk t).view.emb j = ix2 (rowOf t.val (j 0)) (j 1) := by
    funext a; apply Fin.ext
    match a with
    | ⟨0, _⟩ => show win0_8.index t (0 : Fin 2) * 1024 + 1 * (j 0).val = t.val / 8 % 8 * 1024 + (j 0).val; rw [hi.1]; omega
    | ⟨1, _⟩ => show win0_8.index t (1 : Fin 2) * 64 + 1 * (j 1).val = (j 1).val; rw [hi.2]; omega
  rw [he]
  rfl

/-- An index of the array is in point t's output block iff each coordinate is in the block's range on its axis. -/
theorem mem_blk (t : Fin cfg0.N) (i : S8192x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v1).slice (win0_8.rect t)).set ↔ _
  rw [View.set_slice_whole, Rect.mem_set_unit]
  exact Iff.rfl

/-- Every index lies in the block of a flushing point: the last point of its row block's run. -/
theorem covered (i : S8192x64.Idx) : ∃ t : Fin cfg0.N, (cfg0.win 8).flush t = true ∧ i ∈ ((cfg0.win 8).blk t).view.set := by
  have hi0 : (i 0).val < 8192 := (i 0).isLt
  have hi1 : (i 1).val < 64 := (i 1).isLt
  have hlt : 8 * ((i 0).val / 1024) + 7 < cfg0.N := lt_of_lt_of_eq (by omega : 8 * ((i 0).val / 1024) + 7 < 64) N_0.symm
  refine ⟨⟨8 * ((i 0).val / 1024) + 7, hlt⟩, (flush0_8 _).mpr (by show (8 * ((i 0).val / 1024) + 7) % 8 = 7; omega), ?_⟩
  rw [mem_blk]
  have hx := (index_facts ⟨8 * ((i 0).val / 1024) + 7, hlt⟩).2.2.2.2.2.2.2.2
  intro a
  match a with
  | ⟨0, _⟩ =>
    show win0_8.index ⟨8 * ((i 0).val / 1024) + 7, hlt⟩ (0 : Fin 2) * 1024 ≤ (i 0).val ∧ (i 0).val < win0_8.index ⟨8 * ((i 0).val / 1024) + 7, hlt⟩ (0 : Fin 2) * 1024 + 1024
    rw [hx.1]; show (8 * ((i 0).val / 1024) + 7) / 8 * 1024 ≤ (i 0).val ∧ (i 0).val < (8 * ((i 0).val / 1024) + 7) / 8 * 1024 + 1024; omega
  | ⟨1, _⟩ =>
    show win0_8.index ⟨8 * ((i 0).val / 1024) + 7, hlt⟩ (1 : Fin 2) * 64 ≤ (i 1).val ∧ (i 1).val < win0_8.index ⟨8 * ((i 0).val / 1024) + 7, hlt⟩ (1 : Fin 2) * 64 + 64
    rw [hx.2]; omega

/-- The array after the run is the specification of the arguments. -/
theorem final (c : Dev nD) : (dats m 0 c).arrAt 8 cfg0.N = result m c :=
  ((dats m 0 c).arrAt_eq_of_cover 8 (found m c) (flushed_eq m c) covered).trans (found_eq m c)

/-- The run, read: the result array at the specification, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.KernelValue

end
-- ==== Proof.RefValue.lean ====
/-
  The reference program, read entry by entry, is the function G of the specification.

  The reference stacks four 8192 × 64 arrays — the feature matrix X and the three products hop_j · X — along a new
  leading axis, sends the stack through two batched layers (one weight slice per branch), and adds the four branch
  outputs onto zero. Read at (n, o), stage by stage: the stack at (b, n, f) is X(n, f) for b = 0 and
  Σ_k hop_b(n, k) · X(k, f) for b = 1, 2, 3; the hidden stage at (b, n, h) is
  max (Σ_f stack(b, n, f) · W1(b, f, h) + b1(b, h)) 0; the output stage at (b, n, o) is
  Σ_h hidden(b, n, h) · W2(b, h, o) + b2(b, o); the result is 0 + (o₀ + o₁ + o₂ + o₃), which is ((((0 + o₀) + o₁) + o₂) + o₃)
  because 0 is the neutral element of addition on the extended reals.
-/
import proofs.«151574_j70961449664572_2_alg».proof.Proof.Gen.ReferenceIdeal.Read
import proofs.«151574_j70961449664572_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The composed index functions, by coordinates -/

theorem idx18 (n : Fin 8192) (o : Fin 64) (k : Fin 4) : idx_main_v18 (ix2 n o) k = ix3 k n o :=
  funext fun a => Fin.ext (by match a with | ⟨0, _⟩ => rfl | ⟨1, _⟩ => rfl | ⟨2, _⟩ => rfl)

theorem lidx14 (b : Fin 4) (n : Fin 8192) (o : Fin 64) (k : Fin 128) : lidx_main_v14 (ix3 b n o) k = ix3 b n k :=
  funext fun a => Fin.ext (by match a with | ⟨0, _⟩ => rfl | ⟨1, _⟩ => rfl | ⟨2, _⟩ => rfl)

theorem ridx14 (b : Fin 4) (n : Fin 8192) (o : Fin 64) (k : Fin 128) : ridx_main_v14 (ix3 b n o) k = ix3 b k o :=
  funext fun a => Fin.ext (by match a with | ⟨0, _⟩ => rfl | ⟨1, _⟩ => rfl | ⟨2, _⟩ => rfl)

theorem idx16_15 (b : Fin 4) (n : Fin 8192) (o : Fin 64) : idx_main_v15 (idx_main_v16 (ix3 b n o)) = ix2 b o :=
  funext fun a => Fin.ext (by match a with | ⟨0, _⟩ => rfl | ⟨1, _⟩ => rfl)

theorem lidx9 (b : Fin 4) (n : Fin 8192) (h : Fin 128) (k : Fin 64) : lidx_main_v9 (ix3 b n h) k = ix3 b n k :=
  funext fun a => Fin.ext (by match a with | ⟨0, _⟩ => rfl | ⟨1, _⟩ => rfl | ⟨2, _⟩ => rfl)

theorem ridx9 (b : Fin 4) (n : Fin 8192) (h : Fin 128) (k : Fin 64) : ridx_main_v9 (ix3 b n h) k = ix3 b k h :=
  funext fun a => Fin.ext (by match a with | ⟨0, _⟩ => rfl | ⟨1, _⟩ => rfl | ⟨2, _⟩ => rfl)

theorem idx11_10 (b : Fin 4) (n : Fin 8192) (h : Fin 128) : idx_main_v10 (idx_main_v11 (ix3 b n h)) = ix2 b h :=
  funext fun a => Fin.ext (by match a with | ⟨0, _⟩ => rfl | ⟨1, _⟩ => rfl)

theorem idx4 (n : Fin 8192) (f : Fin 64) : idx_main_v4 (ix3 (0 : Fin 1) n f) = ix2 n f :=
  funext fun a => Fin.ext (by match a with | ⟨0, _⟩ => rfl | ⟨1, _⟩ => rfl)

theorem idx5 (n : Fin 8192) (f : Fin 64) : idx_main_v5 (ix3 (0 : Fin 1) n f) = ix2 n f :=
  funext fun a => Fin.ext (by match a with | ⟨0, _⟩ => rfl | ⟨1, _⟩ => rfl)

theorem idx6 (n : Fin 8192) (f : Fin 64) : idx_main_v6 (ix3 (0 : Fin 1) n f) = ix2 n f :=
  funext fun a => Fin.ext (by match a with | ⟨0, _⟩ => rfl | ⟨1, _⟩ => rfl)

theorem idx7 (n : Fin 8192) (f : Fin 64) : idx_main_v7 (ix3 (0 : Fin 1) n f) = ix2 n f :=
  funext fun a => Fin.ext (by match a with | ⟨0, _⟩ => rfl | ⟨1, _⟩ => rfl)

theorem lidx1 (n : Fin 8192) (f : Fin 64) (k : Fin 8192) : lidx_main_v1 (ix2 n f) k = ix2 n k :=
  funext fun a => Fin.ext (by match a with | ⟨0, _⟩ => rfl | ⟨1, _⟩ => rfl)

theorem ridx1 (n : Fin 8192) (f : Fin 64) (k : Fin 8192) : ridx_main_v1 (ix2 n f) k = ix2 k f :=
  funext fun a => Fin.ext (by match a with | ⟨0, _⟩ => rfl | ⟨1, _⟩ => rfl)

theorem lidx2 (n : Fin 8192) (f : Fin 64) (k : Fin 8192) : lidx_main_v2 (ix2 n f) k = ix2 n k :=
  funext fun a => Fin.ext (by match a with | ⟨0, _⟩ => rfl | ⟨1, _⟩ => rfl)

theorem ridx2 (n : Fin 8192) (f : Fin 64) (k : Fin 8192) : ridx_main_v2 (ix2 n f) k = ix2 k f :=
  funext fun a => Fin.ext (by match a with | ⟨0, _⟩ => rfl | ⟨1, _⟩ => rfl)

theorem lidx3 (n : Fin 8192) (f : Fin 64) (k : Fin 8192) : lidx_main_v3 (ix2 n f) k = ix2 n k :=
  funext fun a => Fin.ext (by match a with | ⟨0, _⟩ => rfl | ⟨1, _⟩ => rfl)

theorem ridx3 (n : Fin 8192) (f : Fin 64) (k : Fin 8192) : ridx_main_v3 (ix2 n f) k = ix2 k f :=
  funext fun a => Fin.ext (by match a with | ⟨0, _⟩ => rfl | ⟨1, _⟩ => rfl)

section Stages

variable (x0 : (⟨S8192x48, .f32⟩ : BufTy).Contents (Elt Ideal)) (x1 : (⟨S8192x16, .f32⟩ : BufTy).Contents (Elt Ideal))
  (x2 x3 x4 : (⟨S8192x8192, .f32⟩ : BufTy).Contents (Elt Ideal)) (x5 : (⟨S4x64x128, .f32⟩ : BufTy).Contents (Elt Ideal))
  (x6 : (⟨S4x128, .f32⟩ : BufTy).Contents (Elt Ideal)) (x7 : (⟨S4x128x64, .f32⟩ : BufTy).Contents (Elt Ideal))
  (x8 : (⟨S4x64, .f32⟩ : BufTy).Contents (Elt Ideal))

/-! ## The stack of four arrays, slice by slice

  The four pieces have extent one along the joined axis, so slice b of the stack is piece b at leading coordinate 0. -/

theorem stack0_piece (n : Fin 8192) (f : Fin 64) :
    val_main_v8 (F := Ideal) x0 x1 x2 x3 x4 (ix3 (0 : Fin 4) n f)
      = val_main_v4 (F := Ideal) x0 x1 (ix3 (0 : Fin 1) n f) := by
  unfold val_main_v8
  exact concatenate_apply_piece (t := S4x8192x64) (0 : Fin 3) _ _ (ix3 (0 : Fin 4) n f) 0 (by simp) S1x8192x64 _ rfl rfl
    0 rfl (ix3 (0 : Fin 1) n f)
    (fun b => by match b with | ⟨0, _⟩ => exact fun hb => absurd (Fin.ext rfl) hb | ⟨1, _⟩ => exact fun _ => rfl | ⟨2, _⟩ => exact fun _ => rfl) rfl

theorem stack1_piece (n : Fin 8192) (f : Fin 64) :
    val_main_v8 (F := Ideal) x0 x1 x2 x3 x4 (ix3 (1 : Fin 4) n f)
      = val_main_v5 (F := Ideal) x0 x1 x2 (ix3 (0 : Fin 1) n f) := by
  unfold val_main_v8
  exact concatenate_apply_piece (t := S4x8192x64) (0 : Fin 3) _ _ (ix3 (1 : Fin 4) n f) 1 (by simp) S1x8192x64 _ rfl rfl
    1 rfl (ix3 (0 : Fin 1) n f)
    (fun b => by match b with | ⟨0, _⟩ => exact fun hb => absurd (Fin.ext rfl) hb | ⟨1, _⟩ => exact fun _ => rfl | ⟨2, _⟩ => exact fun _ => rfl) rfl

theorem stack2_piece (n : Fin 8192) (f : Fin 64) :
    val_main_v8 (F := Ideal) x0 x1 x2 x3 x4 (ix3 (2 : Fin 4) n f)
      = val_main_v6 (F := Ideal) x0 x1 x3 (ix3 (0 : Fin 1) n f) := by
  unfold val_main_v8
  exact concatenate_apply_piece (t := S4x8192x64) (0 : Fin 3) _ _ (ix3 (2 : Fin 4) n f) 2 (by simp) S1x8192x64 _ rfl rfl
    2 rfl (ix3 (0 : Fin 1) n f)
    (fun b => by match b with | ⟨0, _⟩ => exact fun hb => absurd (Fin.ext rfl) hb | ⟨1, _⟩ => exact fun _ => rfl | ⟨2, _⟩ => exact fun _ => rfl) rfl

theorem stack3_piece (n : Fin 8192) (f : Fin 64) :
    val_main_v8 (F := Ideal) x0 x1 x2 x3 x4 (ix3 (3 : Fin 4) n f)
      = val_main_v7 (F := Ideal) x0 x1 x4 (ix3 (0 : Fin 1) n f) := by
  unfold val_main_v8
  exact concatenate_apply_piece (t := S4x8192x64) (0 : Fin 3) _ _ (ix3 (3 : Fin 4) n f) 3 (by simp) S1x8192x64 _ rfl rfl
    3 rfl (ix3 (0 : Fin 1) n f)
    (fun b => by match b with | ⟨0, _⟩ => exact fun hb => absurd (Fin.ext rfl) hb | ⟨1, _⟩ => exact fun _ => rfl | ⟨2, _⟩ => exact fun _ => rfl) rfl

/-- Slice 0 of the stack is the feature matrix. -/
theorem stack0 (n : Fin 8192) (f : Fin 64) :
    val_main_v8 (F := Ideal) x0 x1 x2 x3 x4 (ix3 (0 : Fin 4) n f) = val_main_v0 (F := Ideal) x0 x1 (ix2 n f) := by
  rw [stack0_piece, val_main_v4_apply, idx4]

/-- Slice 1 of the stack is the first hop's aggregate. -/
theorem stack1 (n : Fin 8192) (f : Fin 64) :
    val_main_v8 (F := Ideal) x0 x1 x2 x3 x4 (ix3 (1 : Fin 4) n f)
      = Cert.Spec.agg x2 (val_main_v0 (F := Ideal) x0 x1) n f := by
  rw [stack1_piece, val_main_v5_apply, idx5, val_main_v1_apply]
  unfold Cert.Spec.agg
  exact Finset.sum_congr rfl fun k _ => by rw [lidx1, ridx1]

/-- Slice 2 of the stack is the second hop's aggregate. -/
theorem stack2 (n : Fin 8192) (f : Fin 64) :
    val_main_v8 (F := Ideal) x0 x1 x2 x3 x4 (ix3 (2 : Fin 4) n f)
      = Cert.Spec.agg x3 (val_main_v0 (F := Ideal) x0 x1) n f := by
  rw [stack2_piece, val_main_v6_apply, idx6, val_main_v2_apply]
  unfold Cert.Spec.agg
  exact Finset.sum_congr rfl fun k _ => by rw [lidx2, ridx2]

/-- Slice 3 of the stack is the third hop's aggregate. -/
theorem stack3 (n : Fin 8192) (f : Fin 64) :
    val_main_v8 (F := Ideal) x0 x1 x2 x3 x4 (ix3 (3 : Fin 4) n f)
      = Cert.Spec.agg x4 (val_main_v0 (F := Ideal) x0 x1) n f := by
  rw [stack3_piece, val_main_v7_apply, idx7, val_main_v3_apply]
  unfold Cert.Spec.agg
  exact Finset.sum_congr rfl fun k _ => by rw [lidx3, ridx3]

/-! ## The two layers, for any branch -/

/-- The hidden stage at (b, n, h) is the specification's hidden unit h of branch b on row n of slice b of the stack. -/
theorem hidden_at (b : Fin 4) (n : Fin 8192) (h : Fin 128) :
    val_main_v13 (F := Ideal) x0 x1 x2 x3 x4 x5 x6 (ix3 b n h)
      = Cert.Spec.hidden x5 x6 b (fun f => val_main_v8 (F := Ideal) x0 x1 x2 x3 x4 (ix3 b n f)) h := by
  rw [val_main_v13_apply, val_main_v12_apply, val_main_v9_apply, val_main_v11_apply, val_main_v10_apply, idx11_10,
    val_main_call0_v0_apply, val_main_call0_cst_apply, Ideal.ofBits_def, Ideal.ofBits_zero_f32, Ideal.maximumf_def,
    Ideal.addf_def]
  unfold Cert.Spec.hidden
  refine congrArg (fun s : EReal => max (s + x6 (ix2 b h)) 0) (Finset.sum_congr rfl fun k _ => ?_)
  rw [lidx9, ridx9]

/-- The output stage at (b, n, o) is the specification's branch b on row n of slice b of the stack. -/
theorem branch_at (b : Fin 4) (n : Fin 8192) (o : Fin 64) :
    val_main_v17 (F := Ideal) x0 x1 x2 x3 x4 x5 x6 x7 x8 (ix3 b n o)
      = Cert.Spec.branch x5 x6 x7 x8 b (fun f => val_main_v8 (F := Ideal) x0 x1 x2 x3 x4 (ix3 b n f)) o := by
  rw [val_main_v17_apply, val_main_v14_apply, val_main_v16_apply, val_main_v15_apply, idx16_15, Ideal.addf_def]
  unfold Cert.Spec.branch
  refine congrArg (fun s : EReal => s + x8 (ix2 b o)) (Finset.sum_congr rfl fun k _ => ?_)
  rw [lidx14, ridx14, hidden_at]

end Stages

/-! ## The whole reference -/

theorem ref_is_G
    (x0 : (⟨S8192x48, .f32⟩ : BufTy).Contents (Elt Ideal)) (x1 : (⟨S8192x16, .f32⟩ : BufTy).Contents (Elt Ideal))
    (x2 x3 x4 : (⟨S8192x8192, .f32⟩ : BufTy).Contents (Elt Ideal)) (x5 : (⟨S4x64x128, .f32⟩ : BufTy).Contents (Elt Ideal))
    (x6 : (⟨S4x128, .f32⟩ : BufTy).Contents (Elt Ideal)) (x7 : (⟨S4x128x64, .f32⟩ : BufTy).Contents (Elt Ideal))
    (x8 : (⟨S4x64, .f32⟩ : BufTy).Contents (Elt Ideal)) :
    val_main_v18 (F := Ideal) x0 x1 x2 x3 x4 x5 x6 x7 x8
      = Cert.Spec.G (val_main_v0 (F := Ideal) x0 x1) x2 x3 x4 x5 x6 x7 x8 := by
  funext j
  obtain ⟨n, o, rfl⟩ : ∃ (n : Fin 8192) (o : Fin 64), j = ix2 n o := ⟨j 0, j 1, eq_ix2 j⟩
  have e0 : (fun f => val_main_v8 (F := Ideal) x0 x1 x2 x3 x4 (ix3 (0 : Fin 4) n f))
      = fun f => val_main_v0 (F := Ideal) x0 x1 (ix2 n f) := funext fun f => stack0 x0 x1 x2 x3 x4 n f
  have e1 : (fun f => val_main_v8 (F := Ideal) x0 x1 x2 x3 x4 (ix3 (1 : Fin 4) n f))
      = fun f => Cert.Spec.agg x2 (val_main_v0 (F := Ideal) x0 x1) n f := funext fun f => stack1 x0 x1 x2 x3 x4 n f
  have e2 : (fun f => val_main_v8 (F := Ideal) x0 x1 x2 x3 x4 (ix3 (2 : Fin 4) n f))
      = fun f => Cert.Spec.agg x3 (val_main_v0 (F := Ideal) x0 x1) n f := funext fun f => stack2 x0 x1 x2 x3 x4 n f
  have e3 : (fun f => val_main_v8 (F := Ideal) x0 x1 x2 x3 x4 (ix3 (3 : Fin 4) n f))
      = fun f => Cert.Spec.agg x4 (val_main_v0 (F := Ideal) x0 x1) n f := funext fun f => stack3 x0 x1 x2 x3 x4 n f
  rw [val_main_v18_apply, Fin.sum_univ_four, idx18, idx18, idx18, idx18, branch_at, branch_at, branch_at, branch_at,
    e0, e1, e2, e3, val_main_cst_apply, Ideal.ofBits_def, Ideal.ofBits_zero_f32, Cert.Spec.G_ix2]
  unfold Cert.Spec.Gat
  rw [zero_add, zero_add]

end Cert.ReferenceIdeal.RefValue

end
-- ==== Proof.lean ====
/-
  A fused multi-hop message-passing layer against its plain reference, on the extended reals.

  Both programs compute, for every node n and output feature o,
      0 + Σ_b [ Σ_h max (Σ_f inp_b(n, f) · W1(b, f, h) + b1(b, h)) 0 · W2(b, h, o) + b2(b, o) ],   b = 0, 1, 2, 3,
  where inp_0 = X, the node features joined with the walk features, and inp_j = hop_j · X for j = 1, 2, 3.

  The kernel walks an 8 × 8 grid: at point (i, k) it adds the product of the (i, k) block of each hop matrix with rows
  1024 k … 1024 k + 1023 of X into three accumulators that it zeroes at k = 0, and at k = 7 applies the four branches
  and stores the output block of row block i. With every float an exact extended real and a change of float format the
  identity, the accumulators after k = 7 hold the eight runs of 1024 terms of each entry of hop_j · X added in order,
  which is the whole sum because addition is associative and commutative on all extended reals; the branches are then
  the same expression on both sides, the kernel adding them onto zero one after another and the reference adding
  zero to their sum. No finiteness of the inputs is used for the values; the precondition only enters the frames.

  The three frames are the generated ones (the reference's is its generated run with the result dropped); the
  idealization rewrote no operation, so the idealized kernel is the kernel's own text; the value claim sets the kernel's run, read
  through its accumulators block by block, beside the reference's run, read stage by stage.
-/
import proofs.«151574_j70961449664572_2_alg».proof.Defs
import proofs.«151574_j70961449664572_2_alg».proof.Proof.Gen.Kernel
import proofs.«151574_j70961449664572_2_alg».proof.Proof.Gen.Kernel.Skeleton
import proofs.«151574_j70961449664572_2_alg».proof.Proof.Gen.Kernel.Launch
import proofs.«151574_j70961449664572_2_alg».proof.Proof.Gen.Kernel.Points
import proofs.«151574_j70961449664572_2_alg».proof.Proof.Gen.Kernel.Frame
import proofs.«151574_j70961449664572_2_alg».proof.Proof.Gen.KernelIdeal
import proofs.«151574_j70961449664572_2_alg».proof.Proof.Gen.KernelIdeal.Skeleton
import proofs.«151574_j70961449664572_2_alg».proof.Proof.Gen.KernelIdeal.Launch
import proofs.«151574_j70961449664572_2_alg».proof.Proof.Gen.KernelIdeal.Points
import proofs.«151574_j70961449664572_2_alg».proof.Proof.Gen.KernelIdeal.Frame
import proofs.«151574_j70961449664572_2_alg».proof.Proof.Gen.ReferenceIdeal
import proofs.«151574_j70961449664572_2_alg».proof.Proof.Gen.Pre_finite_inputs
import proofs.«151574_j70961449664572_2_alg».proof.Proof.Gen.KernelIdeal.Value
import proofs.«151574_j70961449664572_2_alg».proof.Proof.Gen.ReferenceIdeal.Run
import proofs.«151574_j70961449664572_2_alg».proof.Proof.Gen.ReferenceIdeal.Read
import proofs.«151574_j70961449664572_2_alg».proof.Proof.KernelValue
import proofs.«151574_j70961449664572_2_alg».proof.Proof.RefValue
import Idealize.ShloMosaic.Adequacy
import Idealize.ShloMosaic.Init

noncomputable section

namespace Cert.Proof

open Idealize.ShloMosaic Idealize.SL.Sem

/-- The printed kernel runs to completion without a fault and leaves its arguments as they were. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's function of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
  rw [Cert.ReferenceIdeal.RefValue.ref_is_G, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
